-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_496" .f32 0x3B042108#32 ((1 / 496 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S32769 : Shape := ⟨1, ![32769]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel

variable [Facts]

def fn {F : FTy → Type} [FloatOps F] (main_arg0 : FVec F S1048576 .f32) (main_arg1 : IVec S32769 32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  main_v3
-- ==== Kernel.lean ====
abbrev S1048576 : Shape := ⟨1, ![1048576]⟩
abbrev S32769 : Shape := ⟨1, ![32769]⟩
abbrev S32768x32 : Shape := ⟨2, ![32768, 32]⟩
abbrev S32x32768 : Shape := ⟨2, ![32, 32768]⟩
abbrev S32768 : Shape := ⟨1, ![32768]⟩
abbrev S32x1024 : Shape := ⟨2, ![32, 1024]⟩
abbrev S1024 : Shape := ⟨1, ![1024]⟩
abbrev S32x1x1024 : Shape := ⟨3, ![32, 1, 1024]⟩
abbrev S1x32x1024 : Shape := ⟨3, ![1, 32, 1024]⟩
abbrev S32x32x1024 : Shape := ⟨3, ![32, 32, 1024]⟩

abbrev nBuf : Space → Nat
  | .hbm => 5
  | .vmem => 4
  | .smem => 0
  | _ => 0

abbrev bufTy : (tb : Table) → Fin (tcTables nBuf tb) → BufTy
  | .hbm, ⟨0, _⟩ => ⟨S1048576, .f32⟩
  | .hbm, ⟨1, _⟩ => ⟨S32769, .i32⟩
  | .hbm, ⟨2, _⟩ => ⟨S32768x32, .f32⟩
  | .hbm, ⟨3, _⟩ => ⟨S32x32768, .f32⟩
  | .hbm, ⟨4, _⟩ => ⟨S32768, .f32⟩
  | .local _ .vmem, ⟨0, _⟩ => ⟨S32x1024, .f32⟩
  | .local _ .vmem, ⟨1, _⟩ => ⟨S32x1024, .f32⟩
  | .local _ .vmem, ⟨2, _⟩ => ⟨S1024, .f32⟩
  | .local _ .vmem, ⟨3, _⟩ => ⟨S1024, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1048576_S32768x32 : S1048576.ShapeCasts S32768x32
  transposes_S32768x32_S32x32768_1_0 : S32768x32.Transposes [1, 0] S32x32768
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S32x1024_S32x1x1024 : S32x1024.ShapeCasts S32x1x1024
  shapeCasts_S32x1024_S1x32x1024 : S32x1024.ShapeCasts S1x32x1024
  broadcasts_S32x1x1024_S32x32x1024 : S32x1x1024.Broadcasts S32x32x1024
  broadcasts_S1x32x1024_S32x32x1024 : S1x32x1024.Broadcasts S32x32x1024
  iota_S32x32x1024_d0_w32 : S32x32x1024.Iotas .tc 32 [0]
  iota_S32x32x1024_d1_w32 : S32x32x1024.Iotas .tc 32 [1]
  reduces_S32x32x1024_S32x1024 : S32x32x1024.Reduces [0] S32x1024
  reduces_S32x1024_S1024 : S32x1024.Reduces [0] S1024
  inb_S1024_S1024_0 : ∀ a, (![0] : Fin 1 → Nat) a + S1024.size a ≤ S1024.size a
  h_S1024 : 0 < S1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x32768.size a
  hwx0_0 : ∀ i : grid0.Coords, EltTy.bits .f32 = 32 ∨ (Rect.block (s := S32x32768) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S32768.size a
  hwx0_1 : ∀ i : grid0.Coords, EltTy.bits .f32 = 32 ∨ (Rect.block (s := S32768) S1024.size (cc0_transform_1 i) (hinb0_1 i)).WholeWords (EltTy.packing .f32)

variable [Facts₀]

abbrev win0_0 : Pipeline.Window sig grid0 :=
  Pipeline.Window.ofSpec (Memref.whole main_v1) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1048576 : Shape := ⟨1, ![1048576]⟩
abbrev S32769 : Shape := ⟨1, ![32769]⟩
abbrev S32768x32 : Shape := ⟨2, ![32768, 32]⟩
abbrev S_ : Shape := ⟨0, ![]⟩
abbrev S32x32 : Shape := ⟨2, ![32, 32]⟩
abbrev S1024 : Shape := ⟨1, ![1024]⟩
abbrev S496 : Shape := ⟨1, ![496]⟩
abbrev S1024x1 : Shape := ⟨2, ![1024, 1]⟩
abbrev S496x1 : Shape := ⟨2, ![496, 1]⟩
abbrev S32768x496 : Shape := ⟨2, ![32768, 496]⟩
abbrev S32768 : Shape := ⟨1, ![32768]⟩

abbrev nBuf : Space → Nat
  | .hbm => 171
  | .vmem => 0
  | .smem => 0
  | _ => 0

abbrev hbmTy0_0 (i : Nat) : BufTy := match i % 128 with
  | 0 => ⟨S1048576, .f32⟩
  | 1 => ⟨S32769, .i32⟩
  | 2 => ⟨S32768x32, .f32⟩
  | 3 => ⟨S_, .f32⟩
  | 4 => ⟨S32x32, .f32⟩
  | 5 => ⟨S32x32, .i32⟩
  | 6 => ⟨S_, .i32⟩
  | 7 => ⟨S32x32, .i32⟩
  | 8 => ⟨S32x32, .i32⟩
  | 9 => ⟨S32x32, .i32⟩
  | 10 => ⟨S32x32, .i1⟩
  | 11 => ⟨S_, .f32⟩
  | 12 => ⟨S32x32, .f32⟩
  | 13 => ⟨S32x32, .f32⟩
  | 14 => ⟨S_, .f32⟩
  | 15 => ⟨S32x32, .f32⟩
  | 16 => ⟨S32x32, .i1⟩
  | 17 => ⟨S1024, .i1⟩
  | 18 => ⟨S1024, .i32⟩
  | 19 => ⟨S_, .i32⟩
  | 20 => ⟨S_, .i32⟩
  | 21 => ⟨S1024, .i32⟩
  | 22 => ⟨S_, .i32⟩
  | 23 => ⟨S496, .i32⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i1⟩
  | 31 => ⟨S_, .i32⟩
  | 32 => ⟨S1024, .i32⟩
  | 33 => ⟨S1024, .i32⟩
  | 34 => ⟨S1024, .i32⟩
  | 35 => ⟨S1024x1, .i32⟩
  | 36 => ⟨S_, .i32⟩
  | 37 => ⟨S1024, .i32⟩
  | 38 => ⟨S496, .i32⟩
  | 39 => ⟨S_, .i32⟩
  | 40 => ⟨S_, .i32⟩
  | 41 => ⟨S496, .i32⟩
  | 42 => ⟨S_, .i32⟩
  | 43 => ⟨S496, .i32⟩
  | 44 => ⟨S496, .i32⟩
  | 45 => ⟨S496, .i32⟩
  | 46 => ⟨S_, .i32⟩
  | 47 => ⟨S496, .i32⟩
  | 48 => ⟨S496, .i1⟩
  | 49 => ⟨S496, .i32⟩
  | 50 => ⟨S496, .i32⟩
  | 51 => ⟨S_, .i32⟩
  | 52 => ⟨S496, .i32⟩
  | 53 => ⟨S496, .i1⟩
  | 54 => ⟨S496, .i1⟩
  | 55 => ⟨S_, .i32⟩
  | 56 => ⟨S496, .i32⟩
  | 57 => ⟨S496, .i32⟩
  | 58 => ⟨S496, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S496, .i32⟩
  | 66 => ⟨S496, .i32⟩
  | 67 => ⟨S_, .i32⟩
  | 68 => ⟨S496, .i32⟩
  | 69 => ⟨S496, .i1⟩
  | 70 => ⟨S_, .i32⟩
  | 71 => ⟨S496, .i32⟩
  | 72 => ⟨S496, .i1⟩
  | 73 => ⟨S_, .i32⟩
  | 74 => ⟨S_, .i1⟩
  | 75 => ⟨S496, .i1⟩
  | 76 => ⟨S496, .i1⟩
  | 77 => ⟨S496, .i1⟩
  | 78 => ⟨S496, .i32⟩
  | 79 => ⟨S496, .i32⟩
  | 80 => ⟨S496, .i32⟩
  | 81 => ⟨S_, .i32⟩
  | 82 => ⟨S496, .i32⟩
  | 83 => ⟨S496, .i32⟩
  | 84 => ⟨S496, .i32⟩
  | 85 => ⟨S_, .i32⟩
  | 86 => ⟨S496, .i32⟩
  | 87 => ⟨S496, .i1⟩
  | 88 => ⟨S496, .i32⟩
  | 89 => ⟨S496, .i32⟩
  | 90 => ⟨S_, .i32⟩
  | 91 => ⟨S496, .i32⟩
  | 92 => ⟨S496, .i1⟩
  | 93 => ⟨S496, .i1⟩
  | 94 => ⟨S_, .i32⟩
  | 95 => ⟨S496, .i32⟩
  | 96 => ⟨S496, .i32⟩
  | 97 => ⟨S496, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S496, .i32⟩
  | 105 => ⟨S496, .i32⟩
  | 106 => ⟨S_, .i32⟩
  | 107 => ⟨S496, .i32⟩
  | 108 => ⟨S496, .i1⟩
  | 109 => ⟨S_, .i32⟩
  | 110 => ⟨S496, .i32⟩
  | 111 => ⟨S496, .i1⟩
  | 112 => ⟨S_, .i32⟩
  | 113 => ⟨S_, .i1⟩
  | 114 => ⟨S496, .i1⟩
  | 115 => ⟨S496, .i1⟩
  | 116 => ⟨S496, .i1⟩
  | 117 => ⟨S496, .i32⟩
  | 118 => ⟨S496, .i32⟩
  | 119 => ⟨S496, .i32⟩
  | 120 => ⟨S_, .i32⟩
  | 121 => ⟨S496, .i32⟩
  | 122 => ⟨S496, .i1⟩
  | 123 => ⟨S_, .i32⟩
  | 124 => ⟨S496, .i32⟩
  | 125 => ⟨S496, .i32⟩
  | 126 => ⟨S496, .i32⟩
  | 127 => ⟨S496x1, .i32⟩
  | _ => ⟨S1048576, .f32⟩

abbrev hbmTy0_1 (i : Nat) : BufTy := match i % 128 with
  | 0 => ⟨S32768x496, .f32⟩
  | 1 => ⟨S_, .i32⟩
  | 2 => ⟨S496, .i32⟩
  | 3 => ⟨S496, .i1⟩
  | 4 => ⟨S_, .i32⟩
  | 5 => ⟨S496, .i32⟩
  | 6 => ⟨S496, .i32⟩
  | 7 => ⟨S496, .i32⟩
  | 8 => ⟨S496x1, .i32⟩
  | 9 => ⟨S32768x496, .f32⟩
  | 10 => ⟨S32768x496, .f32⟩
  | 11 => ⟨S32768x496, .f32⟩
  | 12 => ⟨S32768x496, .f32⟩
  | 13 => ⟨S_, .f32⟩
  | 14 => ⟨S32768x496, .f32⟩
  | 15 => ⟨S32768x496, .f32⟩
  | 16 => ⟨S32768x496, .f32⟩
  | 17 => ⟨S32768x496, .f32⟩
  | 18 => ⟨S_, .f32⟩
  | 19 => ⟨S32768x496, .f32⟩
  | 20 => ⟨S32768x496, .f32⟩
  | 21 => ⟨S32768x496, .f32⟩
  | 22 => ⟨S32768x496, .f32⟩
  | 23 => ⟨S32768x496, .i1⟩
  | 24 => ⟨S32768x496, .f32⟩
  | 25 => ⟨S32768x496, .f32⟩
  | 26 => ⟨S32768x496, .f32⟩
  | 27 => ⟨S32768x496, .f32⟩
  | 28 => ⟨S32768x496, .f32⟩
  | 29 => ⟨S32768x496, .f32⟩
  | 30 => ⟨S32768x496, .f32⟩
  | 31 => ⟨S32768x496, .f32⟩
  | 32 => ⟨S32768x496, .f32⟩
  | 33 => ⟨S_, .f32⟩
  | 34 => ⟨S32768x496, .f32⟩
  | 35 => ⟨S32768x496, .f32⟩
  | 36 => ⟨S32768x496, .f32⟩
  | 37 => ⟨S_, .f32⟩
  | 38 => ⟨S32768, .f32⟩
  | 39 => ⟨S_, .f32⟩
  | 40 => ⟨S32768, .f32⟩
  | 41 => ⟨S32768, .f32⟩
  | 42 => ⟨S32768, .f32⟩
  | _ => ⟨S1048576, .f32⟩

abbrev hbmTy (i : Nat) : BufTy := match i / 128 with
  | 0 => hbmTy0_0 i
  | 1 => hbmTy0_1 i
  | _ => ⟨S1048576, .f32⟩

abbrev bufTy : (tb : Table) → Fin (tcTables nBuf tb) → BufTy
  | .hbm, ⟨i, _⟩ => hbmTy i
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_call0_c : Ref sig .tc := ⟨.hbm, 19, rfl⟩
abbrev main_call1_call0_v0 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_v7 : Ref sig .tc := ⟨.hbm, 27, rfl⟩
abbrev main_c_2 : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_call3_call0_c : Ref sig .tc := ⟨.hbm, 39, rfl⟩
abbrev main_call3_call0_v0 : Ref sig .tc := ⟨.hbm, 40, rfl⟩
abbrev main_v16 : Ref sig .tc := ⟨.hbm, 41, rfl⟩
abbrev main_c_5 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_c : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_c_0 : Ref sig .tc := ⟨.hbm, 55, rfl⟩
abbrev main_call4_v11 : Ref sig .tc := ⟨.hbm, 56, rfl⟩
abbrev main_call4_v12 : Ref sig .tc := ⟨.hbm, 57, rfl⟩
abbrev main_v17 : Ref sig .tc := ⟨.hbm, 58, rfl⟩
abbrev main_c_6 : Ref sig .tc := ⟨.hbm, 59, rfl⟩
abbrev main_call5_v0 : Ref sig .tc := ⟨.hbm, 60, rfl⟩
abbrev main_call5_c : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_c_1 : Ref sig .tc := ⟨.hbm, 67, rfl⟩
abbrev main_call5_v5 : Ref sig .tc := ⟨.hbm, 68, rfl⟩
abbrev main_call5_v6 : Ref sig .tc := ⟨.hbm, 69, rfl⟩
abbrev main_call5_c_2 : Ref sig .tc := ⟨.hbm, 70, rfl⟩
abbrev main_call5_v7 : Ref sig .tc := ⟨.hbm, 71, rfl⟩
abbrev main_call5_v8 : Ref sig .tc := ⟨.hbm, 72, rfl⟩
abbrev main_call5_c_3 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_v12 : Ref sig .tc := ⟨.hbm, 77, rfl⟩
abbrev main_call5_v13 : Ref sig .tc := ⟨.hbm, 78, rfl⟩
abbrev main_call5_v14 : Ref sig .tc := ⟨.hbm, 79, rfl⟩
abbrev main_v18 : Ref sig .tc := ⟨.hbm, 80, rfl⟩
abbrev main_c_7 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_c : Ref sig .tc := ⟨.hbm, 90, rfl⟩
abbrev main_call6_v8 : Ref sig .tc := ⟨.hbm, 91, rfl⟩
abbrev main_call6_v9 : Ref sig .tc := ⟨.hbm, 92, rfl⟩
abbrev main_call6_v10 : Ref sig .tc := ⟨.hbm, 93, rfl⟩
abbrev main_call6_c_0 : Ref sig .tc := ⟨.hbm, 94, rfl⟩
abbrev main_call6_v11 : Ref sig .tc := ⟨.hbm, 95, rfl⟩
abbrev main_call6_v12 : Ref sig .tc := ⟨.hbm, 96, rfl⟩
abbrev main_v19 : Ref sig .tc := ⟨.hbm, 97, rfl⟩
abbrev main_c_8 : Ref sig .tc := ⟨.hbm, 98, rfl⟩
abbrev main_call7_v0 : Ref sig .tc := ⟨.hbm, 99, rfl⟩
abbrev main_call7_c : Ref sig .tc := ⟨.hbm, 100, rfl⟩
abbrev main_call7_v1 : Ref sig .tc := ⟨.hbm, 101, rfl⟩
abbrev main_call7_c_0 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_call7_c_1 : Ref sig .tc := ⟨.hbm, 106, rfl⟩
abbrev main_call7_v5 : Ref sig .tc := ⟨.hbm, 107, rfl⟩
abbrev main_call7_v6 : Ref sig .tc := ⟨.hbm, 108, rfl⟩
abbrev main_call7_c_2 : Ref sig .tc := ⟨.hbm, 109, rfl⟩
abbrev main_call7_v7 : Ref sig .tc := ⟨.hbm, 110, rfl⟩
abbrev main_call7_v8 : Ref sig .tc := ⟨.hbm, 111, rfl⟩
abbrev main_call7_c_3 : Ref sig .tc := ⟨.hbm, 112, rfl⟩
abbrev main_call7_v9 : Ref sig .tc := ⟨.hbm, 113, rfl⟩
abbrev main_call7_v10 : Ref sig .tc := ⟨.hbm, 114, rfl⟩
abbrev main_call7_v11 : Ref sig .tc := ⟨.hbm, 115, rfl⟩
abbrev main_call7_v12 : Ref sig .tc := ⟨.hbm, 116, rfl⟩
abbrev main_call7_v13 : Ref sig .tc := ⟨.hbm, 117, rfl⟩
abbrev main_call7_v14 : Ref sig .tc := ⟨.hbm, 118, rfl⟩
abbrev main_v20 : Ref sig .tc := ⟨.hbm, 119, rfl⟩
abbrev main_c_9 : Ref sig .tc := ⟨.hbm, 120, rfl⟩
abbrev main_v21 : Ref sig .tc := ⟨.hbm, 121, rfl⟩
abbrev main_v22 : Ref sig .tc := ⟨.hbm, 122, rfl⟩
abbrev main_c_10 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_c_11 : Ref sig .tc := ⟨.hbm, 129, rfl⟩
abbrev main_v28 : Ref sig .tc := ⟨.hbm, 130, rfl⟩
abbrev main_v29 : Ref sig .tc := ⟨.hbm, 131, rfl⟩
abbrev main_c_12 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_cst_13 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_call8_v0 : Ref sig .tc := ⟨.hbm, 145, rfl⟩
abbrev main_call8_call0_cst : Ref sig .tc := ⟨.hbm, 146, rfl⟩
abbrev main_call8_call0_v0 : Ref sig .tc := ⟨.hbm, 147, rfl⟩
abbrev main_call8_call0_v1 : Ref sig .tc := ⟨.hbm, 148, rfl⟩
abbrev main_call8_call0_v2 : Ref sig .tc := ⟨.hbm, 149, rfl⟩
abbrev main_call8_call0_v3 : Ref sig .tc := ⟨.hbm, 150, rfl⟩
abbrev main_call8_call0_v4 : Ref sig .tc := ⟨.hbm, 151, rfl⟩
abbrev main_call8_call0_v5 : Ref sig .tc := ⟨.hbm, 152, rfl⟩
abbrev main_call8_call0_v6 : Ref sig .tc := ⟨.hbm, 153, rfl⟩
abbrev main_call8_call0_v7 : Ref sig .tc := ⟨.hbm, 154, rfl⟩
abbrev main_call8_call0_v8 : Ref sig .tc := ⟨.hbm, 155, rfl⟩
abbrev main_call8_call0_v9 : Ref sig .tc := ⟨.hbm, 156, rfl⟩
abbrev main_call8_call0_v10 : Ref sig .tc := ⟨.hbm, 157, rfl⟩
abbrev main_call8_call0_v11 : Ref sig .tc := ⟨.hbm, 158, rfl⟩
abbrev main_call8_v1 : Ref sig .tc := ⟨.hbm, 159, rfl⟩
abbrev main_v41 : Ref sig .tc := ⟨.hbm, 160, rfl⟩
abbrev main_cst_14 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_cst_15 : Ref sig .tc := ⟨.hbm, 165, rfl⟩
abbrev main_v45 : Ref sig .tc := ⟨.hbm, 166, rfl⟩
abbrev main_cst_16 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩

abbrev nD : Nat := 1
abbrev τ : Topo := Topo.v7x

variable {F : FTy → Type} [FloatOps F]

class Facts₀ : Prop where
  shapeCasts_S1048576_S32768x32 : S1048576.ShapeCasts S32768x32
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S496 : S_.BroadcastsInDim S496 (![] : Fin 0 → Fin S496.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S496_S496_w496s1p495_0 : S496.ReduceWindows (![496] : Fin 1 → Nat) ![1] ![495] ![0] S496
  bcast_S496_S496x1_0 : S496.BroadcastsInDim S496x1 (![0] : Fin 1 → Fin S496x1.rank)
  bcast_S_S32768x496 : S_.BroadcastsInDim S32768x496 (![] : Fin 0 → Fin S32768x496.rank)
  reducesTo_S32768x496_S32768_d1 : S32768x496.ReducesTo [1] S32768
  bcast_S_S32768 : S_.BroadcastsInDim S32768 (![] : Fin 0 → Fin S32768.rank)
  scatter_S496_S1024x1_S1024_n_0_0_1_wf : ScatterDims.WF S496 S1024x1 S1024 [] [0] [0] 1
  gather_S32768x32_S496x1_S32768x496_0_1_n_n_1_1_327681_wf : GatherDims.WF S32768x32 S496x1 S32768x496 [0] [1] [] [1] [] 1 ![32768, 1]

variable [Facts₀]

def scatter_S496_S1024x1_S1024_n_0_0_1 : ScatterDims S496 S1024x1 S1024 where
  updateWindowDims := []
  insertedWindowDims := [0]
  scatterDimsToOperandDims := [0]
  indexVectorDim := 1
  wf := scatter_S496_S1024x1_S1024_n_0_0_1_wf
def gather_S32768x32_S496x1_S32768x496_0_1_n_n_1_1_327681 : GatherDims S32768x32 S496x1 S32768x496 where
  offsetDims := [0]
  collapsedSliceDims := [1]
  operandBatchingDims := []
  startIndicesBatchingDims := []
  startIndexMap := [1]
  indexVectorDim := 1
  sliceSizes := ![32768, 1]
  wf := gather_S32768x32_S496x1_S32768x496_0_1_n_n_1_1_327681_wf

class Facts : Prop extends Facts₀ where

variable [Facts]
-- ==== Proof.KerSpec.lean ====
/-
  The kernel's result as one function of the flat score array.

  The scores are 32768 segments of 32: segment `s` holds the entries `32 s + i`, `i < 32`.  For a
  pair of places `i < j` of a segment, with scores `a` (at `i`) and `b` (at `j`), the pair's term is
  minus the softplus of `-(a - b)` — softplus written as `max u 0 + log1p (exp (-|u|))`, the absolute
  value as `max v (-v)` — plus one thousandth of half the difference of the squares.  The result at
  segment `s` is minus the sum of the terms of the 496 pairs `i < j`, times `1/496`.
-/
import Idealize.ShloMosaic.PureOps.Ideal
import Idealize.ShloMosaic.Lib.ValueIdx

noncomputable section

open scoped BigOperators

namespace RankLoss

open Idealize.ShloMosaic Idealize.ShloMosaic.ValueIdx

/-- One pair's term, of the score `a` at the earlier place and the score `b` at the later place:
    with `u = 0 - (a - b)`, minus `max u 0 + log1p (exp (0 - |u - 0|))`, plus the small multiple of
    half of `a² - b²`.  The two float literals (one thousandth, one half) stay as their words. -/
def kTerm (a b : EReal) : EReal :=
  (0 - (max (0 - (a - b)) 0
        + Ideal.log1p (Ideal.exp (0 - max (0 - (a - b) - 0) (-(0 - (a - b) - 0))))))
    + Ideal.ofBits .f32 0x3A83126F#32 * (Ideal.ofBits .f32 0x3F000000#32 * (a * a - b * b))

/-- The result array: at segment `y`, minus the mean over the 496 pairs `i < j` of the pair's term of
    the segment's scores at `i` and `j`. -/
def G (x : (⟨1, ![1048576]⟩ : Shape).Idx → EReal) : (⟨1, ![32768]⟩ : Shape).Idx → EReal := fun y =>
  0 - (∑ j : Fin 32, ∑ i : Fin 32, (if i < j then kTerm (x (ix1 ⟨32 * (y 0).val + i.val, by have h : (y 0).val < 32768 := (y 0).isLt; omega⟩)) (x (ix1 ⟨32 * (y 0).val + j.val, by have h : (y 0).val < 32768 := (y 0).isLt; omega⟩)) else 0)) * ((1 / 496 : ℝ) : EReal)

end RankLoss

end
-- ==== Proof.KerPayload.lean ====
/-
  The kernel's stored block at a column.

  The body loads a [32,1024] block `x0` (32 places of 1024 segments), forms for every pair of rows
  `(i, j)` and column `s` the pair's term of `x0 (i, s)` and `x0 (j, s)` — the rows repeated along a
  new middle axis give the first score, along a new leading axis the second —, keeps it where the
  row counter along the first axis is below the one along the second, sums over the first axis and
  then over the remaining row axis, multiplies by the named reciprocal 1/496 and stores zero minus
  that.  Each layout step and each lane sum is read at an index once, over literal coordinates; the
  pointwise steps read through by definition.
-/
import proofs.«159058_j34986803593252_2_alg».proof.Proof.Gen.KernelIdeal.Skeleton
import Idealize.ShloMosaic.Lib.Pipeline.Value
import Idealize.ShloMosaic.PureOps.Ideal.Laws
import Idealize.ShloMosaic.Lib.ValueIdx
import Idealize.ShloMosaic.PureOps.IdealRules
import proofs.«159058_j34986803593252_2_alg».proof.Proof.KerSpec

noncomputable section

open scoped BigOperators

namespace Cert.KernelIdeal.KValue

open Idealize.ShloMosaic Idealize.ShloMosaic.ValueIdx Cert.KernelIdeal Cert.KernelIdeal.Gen

/-- A [32,1024] block viewed [32,1,1024] and repeated along the middle axis reads row `i`. -/
theorem rows_first {α : Type} (v : S32x1024.Idx → α) (h1 : S32x1024.ShapeCasts S32x1x1024)
    (h2 : S32x1x1024.Broadcasts S32x32x1024) (i j : Fin 32) (s : Fin 1024) :
    broadcastTo S32x32x1024 (shapeCast S32x1x1024 v h1) h2 (ix3 i j s) = v (ix2 i s) := by
  refine (broadcastTo_apply _ h2 (ix3 i j s) (ix3 i (0 : Fin 1) s) ?_).trans ?_
  · intro a
    match a with
    | ⟨0, _⟩ => rfl
    | ⟨1, _⟩ => rfl
    | ⟨2, _⟩ => rfl
  · refine shapeCast_apply v h1 _ (ix2 i s) ?_
    rw [Shape.rowMajor_val_two, Shape.rowMajor_val_three]
    show i.val * 1024 + s.val = (i.val * 1 + 0) * 1024 + s.val
    omega

/-- A [32,1024] block viewed [1,32,1024] and repeated along the leading axis reads row `j`. -/
theorem rows_second {α : Type} (v : S32x1024.Idx → α) (h1 : S32x1024.ShapeCasts S1x32x1024)
    (h2 : S1x32x1024.Broadcasts S32x32x1024) (i j : Fin 32) (s : Fin 1024) :
    broadcastTo S32x32x1024 (shapeCast S1x32x1024 v h1) h2 (ix3 i j s) = v (ix2 j s) := by
  refine (broadcastTo_apply _ h2 (ix3 i j s) (ix3 (0 : Fin 1) j s) ?_).trans ?_
  · intro a
    match a with
    | ⟨0, _⟩ => rfl
    | ⟨1, _⟩ => rfl
    | ⟨2, _⟩ => rfl
  · refine shapeCast_apply v h1 _ (ix2 j s) ?_
    rw [Shape.rowMajor_val_two, Shape.rowMajor_val_three]
    show j.val * 1024 + s.val = (0 * 32 + j.val) * 1024 + s.val
    omega

/-- The signed comparison of two place numbers below 32, as 32-bit words, is the comparison of the places. -/
theorem slt_places : ∀ i j : Fin 32, IntOp.cmpi .slt (BitVec.ofNat 32 i.val) (BitVec.ofNat 32 j.val) = if i < j then 1#1 else 0#1 := by
  decide +kernel

/-- A sum along the leading axis of a [32,32,1024] vector. -/
theorem sum_first (src : FVec Ideal S32x32x1024 .f32) (h : S32x32x1024.Reduces [0] S32x1024) (hφ : FKind.Formats .f32)
    (hacc : (0x00000000#32 : BitVec 32) = 0x00000000#32) (j : Fin 32) (s : Fin 1024) :
    multiReduction .add [0] S32x1024 src 0x00000000#32 h hφ hacc (ix2 j s) = ∑ i : Fin 32, src (ix3 i j s) := by
  refine (Ideal.multiReduction_add_single src 0x00000000#32 h hφ hacc (ix2 j s)).trans ?_
  refine Finset.sum_congr rfl fun k _ => congrArg src ?_
  funext a
  match a with
  | ⟨0, _⟩ => rfl
  | ⟨1, _⟩ => rfl
  | ⟨2, _⟩ => rfl

/-- A sum along the leading axis of a [32,1024] vector. -/
theorem sum_rows (src : FVec Ideal S32x1024 .f32) (h : S32x1024.Reduces [0] S1024) (hφ : FKind.Formats .f32)
    (hacc : (0x00000000#32 : BitVec 32) = 0x00000000#32) (s : Fin 1024) :
    multiReduction .add [0] S1024 src 0x00000000#32 h hφ hacc (ix1 s) = ∑ j : Fin 32, src (ix2 j s) := by
  refine (Ideal.multiReduction_add_single src 0x00000000#32 h hφ hacc (ix1 s)).trans ?_
  refine Finset.sum_congr rfl fun k _ => congrArg src ?_
  funext a
  match a with
  | ⟨0, _⟩ => rfl
  | ⟨1, _⟩ => rfl

/-- The two place numbers of a pair, as the body's 32-bit counters along the first two axes. -/
theorem place_first (h : S32x32x1024.Iotas .tc 32 [0]) (i j : Fin 32) (s : Fin 1024) :
    iota .tc S32x32x1024 32 [0] h (ix3 i j s) = BitVec.ofNat 32 i.val :=
  iota_single_apply .tc S32x32x1024 32 0 h (ix3 i j s)

theorem place_second (h : S32x32x1024.Iotas .tc 32 [1]) (i j : Fin 32) (s : Fin 1024) :
    iota .tc S32x32x1024 32 [1] h (ix3 i j s) = BitVec.ofNat 32 j.val :=
  iota_single_apply .tc S32x32x1024 32 1 h (ix3 i j s)

/-- The body's mask keeps exactly the pairs whose first place is before the second. -/
theorem mask_at (h0 : S32x32x1024.Iotas .tc 32 [0]) (h1 : S32x32x1024.Iotas .tc 32 [1]) (i j : Fin 32) (s : Fin 1024) :
    cmpi .slt (iota .tc S32x32x1024 32 [0] h0) (iota .tc S32x32x1024 32 [1] h1) (ix3 i j s) = if i < j then 1#1 else 0#1 := by
  show IntOp.cmpi .slt (iota .tc S32x32x1024 32 [0] h0 (ix3 i j s)) (iota .tc S32x32x1024 32 [1] h1 (ix3 i j s)) = _
  rw [place_first, place_second]
  exact slt_places i j

/-- No extended real differs from itself. -/
theorem cmp_one_self (d : EReal) : FloatOps.cmpf (F := Ideal) (φ := .f32) .one d d = 0#1 := by
  show Ideal.cmp .one d d = 0#1
  simp [Ideal.cmp]

theorem absf_at {s : Shape} {φ : FTy} (a : FVec Ideal s φ) (i : s.Idx) : absf a i = max (a i) (-(a i)) := rfl
theorem exp_at {s : Shape} {φ : FTy} (a : FVec Ideal s φ) (i : s.Idx) : exp a i = Ideal.exp (a i) := rfl
theorem log1p_at {s : Shape} {φ : FTy} (a : FVec Ideal s φ) (i : s.Idx) : log1p a i = Ideal.log1p (a i) := rfl

/-- The named reciprocal is the rational 1/496. -/
theorem inv_496 : Named.named (F := Ideal) κ "inv_496" (φ := .f32) 0x3B042108#32 = ((1 / 496 : ℝ) : EReal) :=
  IdealRules.named_const.ideal_named_scalar _ _ _ _ rfl

/-- THE PAYLOAD AT A COLUMN: what the body stores at column `s` of its block is minus the sum over the pairs of
    rows `i < j` of the pair's term of the loaded block's entries `(i, s)` and `(j, s)`, times 1/496. -/
theorem pay_at (x0 : Vec Ideal S32x1024 .f32) (s : Fin 1024) :
    Gen.k0_pay1 (Gen.k0_pay2 x0) (Gen.k0_pay3 (F := Ideal)) (ix1 s)
      = 0 - (∑ j : Fin 32, ∑ i : Fin 32, (if i < j then RankLoss.kTerm (x0 (ix2 i s)) (x0 (ix2 j s)) else 0)) * ((1 / 496 : ℝ) : EReal) := by
  unfold Gen.k0_pay1 Gen.k0_pay2 Gen.k0_pay3
  dsimp only
  rw [subf_apply, mulf_apply, broadcast_apply, broadcast_apply, inv_496]
  show Ideal.ofBits .f32 0x00000000#32 - _ = _
  rw [Ideal.ofBits_zero_f32]
  refine congrArg (fun z : EReal => (0 : EReal) - z * ((1 / 496 : ℝ) : EReal)) ?_
  refine (sum_rows _ _ _ _ s).trans (Finset.sum_congr rfl fun j _ => ?_)
  refine (sum_first _ _ _ _ j s).trans (Finset.sum_congr rfl fun i _ => ?_)
  rw [select_apply, mask_at]
  by_cases hij : i < j
  · rw [if_pos hij, if_pos hij, select_one]
    simp only [addf_apply, subf_apply, mulf_apply, maximumf_apply, select_apply, cmpf_apply, broadcast_apply,
      absf_at, exp_at, log1p_at, rows_first, rows_second, shapeCast_self, cmp_one_self, select_zero,
      Ideal.ofBits_def, Ideal.ofBits_zero_f32]
    rfl
  · rw [if_neg hij, if_neg hij, select_zero, broadcast_apply]
    exact Ideal.ofBits_zero_f32

/-- The same at any index of the stored block, through its one coordinate. -/
theorem pay_idx (x0 : Vec Ideal S32x1024 .f32) (y : S1024.Idx) :
    Gen.k0_pay1 (Gen.k0_pay2 x0) (Gen.k0_pay3 (F := Ideal)) y
      = 0 - (∑ j : Fin 32, ∑ i : Fin 32, (if i < j then RankLoss.kTerm (x0 (ix2 i (y 0))) (x0 (ix2 j (y 0))) else 0)) * ((1 / 496 : ℝ) : EReal) := by
  obtain ⟨s, rfl⟩ : ∃ s : Fin 1024, y = ix1 s := ⟨y 0, eq_ix1 y⟩
  exact pay_at x0 s

end Cert.KernelIdeal.KValue

end
-- ==== Proof.KerArray.lean ====
/-
  From the blocks to the result array.

  Before the region the host regroups the flat scores as 32768 segments of 32 and exchanges the two
  axes, so the array the kernel reads holds, at place `i` and segment `q`, the flat score `32 q + i`.
  Grid point `t` (of 32) loads all 32 places of segments `1024 t … 1024 t + 1023` and writes entries
  `1024 t … 1024 t + 1023` of the result.  Hence the block it loads holds, at `(i, p)`, the flat score
  `32 (1024 t + p) + i`; what it writes back at `p` is the result function at segment `1024 t + p`; the
  32 written runs tile the result array (entry `s` lies in run `s / 1024`), so after the run the array
  is the result function of the scores everywhere.
-/
import proofs.«159058_j34986803593252_2_alg».proof.Proof.Gen.KernelIdeal.Value
import proofs.«159058_j34986803593252_2_alg».proof.Proof.KerSpec
import Idealize.ShloMosaic.Lib.Pipeline.Value
import Idealize.ShloMosaic.Lib.ValueLayout
import Idealize.ShloMosaic.Lib.Tactic
import proofs.«159058_j34986803593252_2_alg».proof.Proof.KerPayload

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The transposed array as the two host operations leave it: the flat scores regrouped as
    32768 segments of 32, then segments and places exchanged. -/
theorem v1_eq (c : Dev nD) :
    (V m c main_v1 : S32x32768.Idx → EReal)
      = transpose S32x32768 [1, 0] (shapeCast S32768x32 (m ((c : Thread nD τ).loc main_arg0) : S1048576.Idx → EReal) shapeCasts_S1048576_S32768x32) transposes_S32768x32_S32x32768_1_0 := by
  dsimp only [Gen.V, Gen.hostOps0]
  after_results
  rfl

/-- The transposed array at place `i` of segment `q` is the flat score at `32 q + i`. -/
theorem v1_at (c : Dev nD) (i : Fin 32) (q : Fin 32768) (k : Fin 1048576) (hk : k.val = 32 * q.val + i.val) :
    (V m c main_v1 : S32x32768.Idx → EReal) (ix2 i q) = (m ((c : Thread nD τ).loc main_arg0) : S1048576.Idx → EReal) (ix1 k) := by
  rw [v1_eq]
  refine (transpose_ix2_apply _ _ i q).trans ?_
  refine shapeCast_apply _ _ (ix2 q i) (ix1 k) ?_
  rw [Shape.rowMajor_val_one, Shape.rowMajor_val_two]
  show k.val = q.val * 32 + i.val
  omega

/-- The two index maps over the grid: point `t` reads all 32 rows and the `t`-th run of 1024 columns,
    and writes the `t`-th run of 1024 entries. -/
theorem idx_facts : ∀ t : Fin cfg0.N, win0_0.index t (0 : Fin 2) = 0 ∧ win0_0.index t (1 : Fin 2) = t.val
    ∧ win0_1.index t (0 : Fin 1) = t.val :=
  (by decide +kernel : ∀ t : Fin grid0.N, _)

/-- The loaded block at point `t`, place `i`, column `p`: the flat score at `32 (1024 t + p) + i`. -/
theorem iblk_at (c : Dev nD) (t : Fin cfg0.N) (i : Fin 32) (p : Fin 1024) (k : Fin 1048576)
    (hk : k.val = 32 * (1024 * t.val + p.val) + i.val) :
    (iblk m c 0 t : Vec Ideal S32x1024 .f32) (ix2 i p) = (m ((c : Thread nD τ).loc main_arg0) : S1048576.Idx → EReal) (ix1 k) := by
  have hN : cfg0.N = 32 := N_0
  have ht : t.val < 32 := by have := t.isLt; omega
  unfold iblk
  rw [View.read_apply]
  show V m c main_v1 (((cfg0.win 0).blk t).view.emb (ix2 i p)) = _
  have e : ((cfg0.win 0).blk t).view.emb (ix2 i p) = ix2 i (⟨1024 * t.val + p.val, by omega⟩ : Fin 32768) := by
    funext a; apply Fin.ext
    match a with
    | ⟨0, _⟩ => show win0_0.index t (0 : Fin 2) * 32 + 1 * i.val = i.val; rw [(idx_facts t).1]; omega
    | ⟨1, _⟩ => show win0_0.index t (1 : Fin 2) * 1024 + 1 * p.val = 1024 * t.val + p.val; rw [(idx_facts t).2.1]; omega
  rw [e]
  exact v1_at m c i _ k hk

theorem hz1 : (![0] : Fin 1 → Nat) = fun _ => 0 := funext fun a => by fin_cases a; rfl
theorem hz2 : (![0, 0] : Fin 2 → Nat) = fun _ => 0 := funext fun a => by fin_cases a <;> rfl

/-- WHAT POINT `t` WRITES BACK is block `t` of the result function of the scores. -/
theorem flushed_eq (c : Dev nD) (t : Fin cfg0.N) :
    (dats m 0 c).flushed 1 t = ((cfg0.win 1).blk t).view.read (Elt Ideal) (RankLoss.G (m ((c : Thread nD τ).loc main_arg0))) := by
  rw [Value.flushed1]
  unfold Gen.out0_1
  rw [View.canon_unit_zero hz1]
  simp only [View.ld_unit_zero (S := S32x1024) hz2]
  funext y
  have hN : cfg0.N = 32 := N_0
  have ht : t.val < 32 := by have := t.isLt; omega
  have hy : (y 0).val < 1024 := (y 0).isLt
  show Gen.k0_pay1 (Gen.k0_pay2 (iblk m c 0 t)) Gen.k0_pay3 ((cfg0.win 1).xinj (grid0.coords t) y)
      = RankLoss.G (m ((c : Thread nD τ).loc main_arg0)) (((cfg0.win 1).blk t).view.emb y)
  refine (pay_idx (iblk m c 0 t) ((cfg0.win 1).xinj (grid0.coords t) y)).trans ?_
  have e0 : ((((cfg0.win 1).blk t).view.emb y) 0).val = 1024 * t.val + (y 0).val := by
    show win0_1.index t (0 : Fin 1) * 1024 + 1 * (y 0).val = _
    rw [(idx_facts t).2.2]; omega
  have key : ∀ i : Fin 32, (iblk m c 0 t : Vec Ideal S32x1024 .f32) (ix2 i (((cfg0.win 1).xinj (grid0.coords t) y) 0))
      = (m ((c : Thread nD τ).loc main_arg0) : S1048576.Idx → EReal)
          (ix1 ⟨32 * ((((cfg0.win 1).blk t).view.emb y) 0).val + i.val, by have := i.isLt; rw [e0]; omega⟩) :=
    fun i => iblk_at m c t i _ _ (by
      show 32 * ((((cfg0.win 1).blk t).view.emb y) 0).val + i.val = 32 * (1024 * t.val + (y 0).val) + i.val
      rw [e0])
  unfold RankLoss.G
  refine congrArg (fun z : EReal => (0 : EReal) - z * ((1 / 496 : ℝ) : EReal)) ?_
  refine Finset.sum_congr rfl fun j _ => Finset.sum_congr rfl fun i _ => ?_
  rw [key i, key j]

/-- An index of the result array is in point `t`'s block iff it lies in the `t`-th run of 1024 entries. -/
theorem mem_blk (t : Fin cfg0.N) (i : S32768.Idx) :
    i ∈ ((cfg0.win 1).blk t).view.set ↔ ∀ a : Fin 1, win0_1.index t a * S1024.size a ≤ (i a).val ∧ (i a).val < win0_1.index t a * S1024.size a + S1024.size a := by
  show i ∈ ((View.whole main_v2).slice (win0_1.rect t)).set ↔ _
  rw [View.set_slice_whole, Rect.mem_set_unit]
  exact Iff.rfl

/-- Every entry of the result array is written by the point numbered by its run: entry `s` by point `s / 1024`. -/
theorem cover (i : S32768.Idx) : ∃ t : Fin cfg0.N, (cfg0.win 1).flush t = true ∧ i ∈ ((cfg0.win 1).blk t).view.set := by
  have hi : (i 0).val < 32768 := (i 0).isLt
  have hN : cfg0.N = 32 := N_0
  refine ⟨⟨(i 0).val / 1024, by rw [hN]; omega⟩, flush0_1 _, ?_⟩
  rw [mem_blk]
  intro a
  match a with
  | ⟨0, _⟩ =>
    show win0_1.index _ (0 : Fin 1) * 1024 ≤ (i 0).val ∧ (i 0).val < win0_1.index _ (0 : Fin 1) * 1024 + 1024
    rw [(idx_facts _).2.2]
    show (i 0).val / 1024 * 1024 ≤ (i 0).val ∧ (i 0).val < (i 0).val / 1024 * 1024 + 1024
    omega

/-- THE RESULT ARRAY after the run is the result function of the scores as launched. -/
theorem final (c : Dev nD) : (dats m 0 c).arrAt 1 cfg0.N = RankLoss.G (m ((c : Thread nD τ).loc main_arg0)) :=
  (dats m 0 c).arrAt_eq_of_cover 1 (RankLoss.G (m ((c : Thread nD τ).loc main_arg0))) (fun t _ => flushed_eq m c t) cover

/-- The run, read: the result array at the result function of the scores, the arguments unchanged. -/
theorem run :
    θ_run (defs (F := Ideal)) (onTc (τ := τ) (main (F := Ideal))) ⟨m, fun _ => 0, ρ⟩ fun r => ∀ c : Dev nD,
      r.2.mem ((c : Thread nD τ).loc main_v2) = RankLoss.G (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.RefOps.lean ====
/- The reference program's @main as the LIST of its 169 host operations, in program order: each call of an
   outlined function replaced by that function's operations over the call's own buffer record (a nested call
   by the inner function's, over the inner record), @main's own lines as the program prints them. -/
import proofs.«159058_j34986803593252_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 169 operations, in order. -/
abbrev ops : List (HloOp τ sig (Elt F)) :=
  [ reshape main_arg0 main_v0 rfl shapeCasts_S1048576_S32768x32,
    nullary main_cst (constant S_ .f32 0x3F800000#32),
    unary main_cst main_v1 (broadcastInDim S32x32 ![] bcast_S_S32x32 : (⟨S_, .f32⟩ : BufTy).Contents (Elt F) → (⟨S32x32, .f32⟩ : BufTy).Contents (Elt F)),
    TRef.nullary main_call0.v0 (iotaInDim S32x32 32 0),
    TRef.nullary main_call0.c (constantI S_ 32 0#32),
    TRef.unary main_call0.c main_call0.v1 (broadcastInDim S32x32 ![] bcast_S_S32x32),
    TRef.binary main_call0.v0 main_call0.v1 main_call0.v2 addi,
    TRef.nullary main_call0.v3 (iotaInDim S32x32 32 1),
    TRef.binary main_call0.v2 main_call0.v3 main_call0.v4 (cmpi .sge),
    TRef.nullary main_call0.cst (constant S_ .f32 0x00000000#32),
    TRef.unary main_call0.cst main_call0.v5 (broadcastInDim S32x32 ![] bcast_S_S32x32),
    TRef.ternary main_call0.v4 main_call0.v5 (.of main_v1 : TRef sig ⟨S32x32, .f32⟩) main_call0.v6 select,
    nullary main_cst_0 (constant S_ .f32 0x00000000#32),
    unary main_cst_0 main_v3 (broadcastInDim S32x32 ![] bcast_S_S32x32 : (⟨S_, .f32⟩ : BufTy).Contents (Elt F) → (⟨S32x32, .f32⟩ : BufTy).Contents (Elt F)),
    binary main_v2 main_v3 main_v4 (cmpf .une : (⟨S32x32, .f32⟩ : BufTy).Contents (Elt F) → (⟨S32x32, .f32⟩ : BufTy).Contents (Elt F) → (⟨S32x32, .i1⟩ : BufTy).Contents (Elt F)),
    TRef.reshape (.of main_v4 : TRef sig ⟨S32x32, .i1⟩) main_call1.v0 rfl shapeCasts_S32x32_S1024,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1024] ![1] ![1023] ![0] x v reduceWindows_S1024_S1024_w1024s1p1023_0 h_S_),
    nullary main_c (constantI S_ 32 0#32),
    unary main_c main_v6 (broadcastInDim S496 ![] bcast_S_S496 : (⟨S_, .i32⟩ : BufTy).Contents (Elt F) → (⟨S496, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S1024 ![] bcast_S_S1024),
    TRef.binary main_call2.v1 (.of main_v5 : TRef sig ⟨S1024, .i32⟩) main_call2.v2 maxsi,
    nullary main_c_2 (constantI S_ 32 0#32),
    unary main_c_2 main_v8 (broadcastInDim S1024 ![] bcast_S_S1024 : (⟨S_, .i32⟩ : BufTy).Contents (Elt F) → (⟨S1024, .i32⟩ : BufTy).Contents (Elt F)),
    binary main_v7 main_v8 main_v9 (cmpi .slt : (⟨S1024, .i32⟩ : BufTy).Contents (Elt F) → (⟨S1024, .i32⟩ : BufTy).Contents (Elt F) → (⟨S1024, .i1⟩ : BufTy).Contents (Elt F)),
    nullary main_c_3 (constantI S_ 32 496#32),
    unary main_c_3 main_v10 (broadcastInDim S1024 ![] bcast_S_S1024 : (⟨S_, .i32⟩ : BufTy).Contents (Elt F) → (⟨S1024, .i32⟩ : BufTy).Contents (Elt F)),
    binary main_v7 main_v10 main_v11 (addi : (⟨S1024, .i32⟩ : BufTy).Contents (Elt F) → (⟨S1024, .i32⟩ : BufTy).Contents (Elt F) → (⟨S1024, .i32⟩ : BufTy).Contents (Elt F)),
    ternary main_v9 main_v11 main_v7 main_v12 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v12 main_v13 (broadcastInDim S1024x1 ![0] bcast_S1024_S1024x1_0 : (⟨S1024, .i32⟩ : BufTy).Contents (Elt F) → (⟨S1024x1, .i32⟩ : BufTy).Contents (Elt F)),
    nullary main_c_4 (constantI S_ 32 1#32),
    unary main_c_4 main_v14 (broadcastInDim S1024 ![] bcast_S_S1024 : (⟨S_, .i32⟩ : BufTy).Contents (Elt F) → (⟨S1024, .i32⟩ : BufTy).Contents (Elt F)),
    ternary main_v6 main_v13 main_v14 main_v15 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)),
    TRef.nullary main_call3.call0.c (constantI S_ 32 0#32),
    TRef.unary main_call3.call0.c main_call3.call0.v0 (broadcastInDim S_ ![] bcast_S_S_),
    TRef.binary (.of main_v15 : TRef sig ⟨S496, .i32⟩) main_call3.call0.v0 main_call3.call0.v1 (fun x v => Host.reduceWindow IntOp.addi ![496] ![1] ![495] ![0] x v reduceWindows_S496_S496_w496s1p495_0 h_S_),
    nullary main_c_5 (constantI S_ 32 32#32),
    TRef.unary (.of main_c_5 : TRef sig ⟨S_, .i32⟩) main_call4.v0 (broadcastInDim S496 ![] bcast_S_S496),
    TRef.binary (.of main_v16 : TRef sig ⟨S496, .i32⟩) main_call4.v0 main_call4.v1 Host.divsi,
    TRef.unary (.of main_v16 : TRef sig ⟨S496, .i32⟩) main_call4.v2 signi,
    TRef.unary (.of main_c_5 : TRef sig ⟨S_, .i32⟩) main_call4.v3 signi,
    TRef.unary main_call4.v3 main_call4.v4 (broadcastInDim S496 ![] bcast_S_S496),
    TRef.binary main_call4.v2 main_call4.v4 main_call4.v5 (cmpi .ne),
    TRef.unary (.of main_c_5 : TRef sig ⟨S_, .i32⟩) main_call4.v6 (broadcastInDim S496 ![] bcast_S_S496),
    TRef.binary (.of main_v16 : TRef sig ⟨S496, .i32⟩) main_call4.v6 main_call4.v7 Host.remsi,
    TRef.nullary main_call4.c (constantI S_ 32 0#32),
    TRef.unary main_call4.c main_call4.v8 (broadcastInDim S496 ![] bcast_S_S496),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S496 ![] bcast_S_S496),
    TRef.binary main_call4.v1 main_call4.v11 main_call4.v12 subi,
    TRef.ternary main_call4.v10 main_call4.v12 main_call4.v1 main_call4.call0.v0 select,
    nullary main_c_6 (constantI S_ 32 32#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S496 ![] bcast_S_S496),
    TRef.binary (.of main_v17 : TRef sig ⟨S496, .i32⟩) main_call5.v3 main_call5.v4 Host.remsi,
    TRef.nullary main_call5.c_1 (constantI S_ 32 0#32),
    TRef.unary main_call5.c_1 main_call5.v5 (broadcastInDim S496 ![] bcast_S_S496),
    TRef.binary main_call5.v4 main_call5.v5 main_call5.v6 (cmpi .ne),
    TRef.nullary main_call5.c_2 (constantI S_ 32 0#32),
    TRef.unary main_call5.c_2 main_call5.v7 (broadcastInDim S496 ![] bcast_S_S496),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S496 ![] bcast_S_S496),
    TRef.binary main_call5.v8 main_call5.v10 main_call5.v11 (cmpi .ne),
    TRef.binary main_call5.v11 main_call5.v6 main_call5.v12 andi,
    TRef.unary main_call5.call0.v0 main_call5.v13 (broadcastInDim S496 ![] bcast_S_S496),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S496 ![] bcast_S_S496),
    TRef.binary (.of main_v16 : TRef sig ⟨S496, .i32⟩) main_call6.v0 main_call6.v1 Host.divsi,
    TRef.unary (.of main_v16 : TRef sig ⟨S496, .i32⟩) main_call6.v2 signi,
    TRef.unary (.of main_c_7 : TRef sig ⟨S_, .i32⟩) main_call6.v3 signi,
    TRef.unary main_call6.v3 main_call6.v4 (broadcastInDim S496 ![] bcast_S_S496),
    TRef.binary main_call6.v2 main_call6.v4 main_call6.v5 (cmpi .ne),
    TRef.unary (.of main_c_7 : TRef sig ⟨S_, .i32⟩) main_call6.v6 (broadcastInDim S496 ![] bcast_S_S496),
    TRef.binary (.of main_v16 : TRef sig ⟨S496, .i32⟩) main_call6.v6 main_call6.v7 Host.remsi,
    TRef.nullary main_call6.c (constantI S_ 32 0#32),
    TRef.unary main_call6.c main_call6.v8 (broadcastInDim S496 ![] bcast_S_S496),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S496 ![] bcast_S_S496),
    TRef.binary main_call6.v1 main_call6.v11 main_call6.v12 subi,
    TRef.ternary main_call6.v10 main_call6.v12 main_call6.v1 main_call6.call0.v0 select,
    nullary main_c_8 (constantI S_ 32 32#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S496 ![] bcast_S_S496),
    TRef.binary (.of main_v19 : TRef sig ⟨S496, .i32⟩) main_call7.v3 main_call7.v4 Host.remsi,
    TRef.nullary main_call7.c_1 (constantI S_ 32 0#32),
    TRef.unary main_call7.c_1 main_call7.v5 (broadcastInDim S496 ![] bcast_S_S496),
    TRef.binary main_call7.v4 main_call7.v5 main_call7.v6 (cmpi .ne),
    TRef.nullary main_call7.c_2 (constantI S_ 32 0#32),
    TRef.unary main_call7.c_2 main_call7.v7 (broadcastInDim S496 ![] bcast_S_S496),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S496 ![] bcast_S_S496),
    TRef.binary main_call7.v8 main_call7.v10 main_call7.v11 (cmpi .ne),
    TRef.binary main_call7.v11 main_call7.v6 main_call7.v12 andi,
    TRef.unary main_call7.call0.v0 main_call7.v13 (broadcastInDim S496 ![] bcast_S_S496),
    TRef.binary main_call7.v4 main_call7.v13 main_call7.v14 addi,
    TRef.ternary main_call7.v12 main_call7.v14 main_call7.v4 main_call7.v15 select,
    nullary main_c_9 (constantI S_ 32 0#32),
    unary main_c_9 main_v21 (broadcastInDim S496 ![] bcast_S_S496 : (⟨S_, .i32⟩ : BufTy).Contents (Elt F) → (⟨S496, .i32⟩ : BufTy).Contents (Elt F)),
    binary main_v18 main_v21 main_v22 (cmpi .slt : (⟨S496, .i32⟩ : BufTy).Contents (Elt F) → (⟨S496, .i32⟩ : BufTy).Contents (Elt F) → (⟨S496, .i1⟩ : BufTy).Contents (Elt F)),
    nullary main_c_10 (constantI S_ 32 32#32),
    unary main_c_10 main_v23 (broadcastInDim S496 ![] bcast_S_S496 : (⟨S_, .i32⟩ : BufTy).Contents (Elt F) → (⟨S496, .i32⟩ : BufTy).Contents (Elt F)),
    binary main_v18 main_v23 main_v24 (addi : (⟨S496, .i32⟩ : BufTy).Contents (Elt F) → (⟨S496, .i32⟩ : BufTy).Contents (Elt F) → (⟨S496, .i32⟩ : BufTy).Contents (Elt F)),
    ternary main_v22 main_v24 main_v18 main_v25 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v25 main_v26 (broadcastInDim S496x1 ![0] bcast_S496_S496x1_0 : (⟨S496, .i32⟩ : BufTy).Contents (Elt F) → (⟨S496x1, .i32⟩ : BufTy).Contents (Elt F)),
    binary main_v0 main_v26 main_v27 ((fun x i => Host.gather gather_S32768x32_S496x1_S32768x496_0_1_n_n_1_1_327681 x i) : (⟨S32768x32, .f32⟩ : BufTy).Contents (Elt F) → (⟨S496x1, .i32⟩ : BufTy).Contents (Elt F) → (⟨S32768x496, .f32⟩ : BufTy).Contents (Elt F)),
    nullary main_c_11 (constantI S_ 32 0#32),
    unary main_c_11 main_v28 (broadcastInDim S496 ![] bcast_S_S496 : (⟨S_, .i32⟩ : BufTy).Contents (Elt F) → (⟨S496, .i32⟩ : BufTy).Contents (Elt F)),
    binary main_v20 main_v28 main_v29 (cmpi .slt : (⟨S496, .i32⟩ : BufTy).Contents (Elt F) → (⟨S496, .i32⟩ : BufTy).Contents (Elt F) → (⟨S496, .i1⟩ : BufTy).Contents (Elt F)),
    nullary main_c_12 (constantI S_ 32 32#32),
    unary main_c_12 main_v30 (broadcastInDim S496 ![] bcast_S_S496 : (⟨S_, .i32⟩ : BufTy).Contents (Elt F) → (⟨S496, .i32⟩ : BufTy).Contents (Elt F)),
    binary main_v20 main_v30 main_v31 (addi : (⟨S496, .i32⟩ : BufTy).Contents (Elt F) → (⟨S496, .i32⟩ : BufTy).Contents (Elt F) → (⟨S496, .i32⟩ : BufTy).Contents (Elt F)),
    ternary main_v29 main_v31 main_v20 main_v32 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    unary main_v32 main_v33 (broadcastInDim S496x1 ![0] bcast_S496_S496x1_0 : (⟨S496, .i32⟩ : BufTy).Contents (Elt F) → (⟨S496x1, .i32⟩ : BufTy).Contents (Elt F)),
    binary main_v0 main_v33 main_v34 ((fun x i => Host.gather gather_S32768x32_S496x1_S32768x496_0_1_n_n_1_1_327681 x i) : (⟨S32768x32, .f32⟩ : BufTy).Contents (Elt F) → (⟨S496x1, .i32⟩ : BufTy).Contents (Elt F) → (⟨S32768x496, .f32⟩ : BufTy).Contents (Elt F)),
    binary main_v27 main_v27 main_v35 (mulf : (⟨S32768x496, .f32⟩ : BufTy).Contents (Elt F) → (⟨S32768x496, .f32⟩ : BufTy).Contents (Elt F) → (⟨S32768x496, .f32⟩ : BufTy).Contents (Elt F)),
    binary main_v34 main_v34 main_v36 (mulf : (⟨S32768x496, .f32⟩ : BufTy).Contents (Elt F) → (⟨S32768x496, .f32⟩ : BufTy).Contents (Elt F) → (⟨S32768x496, .f32⟩ : BufTy).Contents (Elt F)),
    binary main_v35 main_v36 main_v37 (subf : (⟨S32768x496, .f32⟩ : BufTy).Contents (Elt F) → (⟨S32768x496, .f32⟩ : BufTy).Contents (Elt F) → (⟨S32768x496, .f32⟩ : BufTy).Contents (Elt F)),
    nullary main_cst_13 (constant S_ .f32 0x3F000000#32),
    unary main_cst_13 main_v38 (broadcastInDim S32768x496 ![] bcast_S_S32768x496 : (⟨S_, .f32⟩ : BufTy).Contents (Elt F) → (⟨S32768x496, .f32⟩ : BufTy).Contents (Elt F)),
    binary main_v38 main_v37 main_v39 (mulf : (⟨S32768x496, .f32⟩ : BufTy).Contents (Elt F) → (⟨S32768x496, .f32⟩ : BufTy).Contents (Elt F) → (⟨S32768x496, .f32⟩ : BufTy).Contents (Elt F)),
    binary main_v27 main_v34 main_v40 (subf : (⟨S32768x496, .f32⟩ : BufTy).Contents (Elt F) → (⟨S32768x496, .f32⟩ : BufTy).Contents (Elt F) → (⟨S32768x496, .f32⟩ : BufTy).Contents (Elt F)),
    TRef.unary (.of main_v40 : TRef sig ⟨S32768x496, .f32⟩) main_call8.v0 Host.negf,
    TRef.nullary main_call8.call0.cst (constant S_ .f32 0x00000000#32),
    TRef.unary main_call8.call0.cst main_call8.call0.v0 (broadcastInDim S32768x496 ![] bcast_S_S32768x496),
    TRef.binary main_call8.v0 main_call8.call0.v0 main_call8.call0.v1 maximumf,
    TRef.unary main_call8.call0.cst main_call8.call0.v2 (broadcastInDim S32768x496 ![] bcast_S_S32768x496),
    TRef.binary main_call8.v0 main_call8.call0.v2 main_call8.call0.v3 subf,
    TRef.binary main_call8.call0.v3 main_call8.call0.v3 main_call8.call0.v4 (cmpf .une),
    TRef.unary main_call8.call0.cst main_call8.call0.v5 (broadcastInDim S32768x496 ![] bcast_S_S32768x496),
    TRef.binary main_call8.v0 main_call8.call0.v5 main_call8.call0.v6 addf,
    TRef.unary main_call8.call0.v3 main_call8.call0.v7 Host.absf,
    TRef.unary main_call8.call0.v7 main_call8.call0.v8 Host.negf,
    TRef.unary main_call8.call0.v8 main_call8.call0.v9 Host.exp,
    TRef.unary main_call8.call0.v9 main_call8.call0.v10 Host.log1p,
    TRef.binary main_call8.call0.v1 main_call8.call0.v10 main_call8.call0.v11 addf,
    TRef.ternary main_call8.call0.v4 main_call8.call0.v6 main_call8.call0.v11 main_call8.call0.v12 select,
    TRef.unary main_call8.call0.v12 main_call8.v2 Host.negf,
    nullary main_cst_14 (constant S_ .f32 0x3A83126F#32),
    unary main_cst_14 main_v42 (broadcastInDim S32768x496 ![] bcast_S_S32768x496 : (⟨S_, .f32⟩ : BufTy).Contents (Elt F) → (⟨S32768x496, .f32⟩ : BufTy).Contents (Elt F)),
    binary main_v42 main_v39 main_v43 (mulf : (⟨S32768x496, .f32⟩ : BufTy).Contents (Elt F) → (⟨S32768x496, .f32⟩ : BufTy).Contents (Elt F) → (⟨S32768x496, .f32⟩ : BufTy).Contents (Elt F)),
    binary main_v41 main_v43 main_v44 (addf : (⟨S32768x496, .f32⟩ : BufTy).Contents (Elt F) → (⟨S32768x496, .f32⟩ : BufTy).Contents (Elt F) → (⟨S32768x496, .f32⟩ : BufTy).Contents (Elt F)),
    nullary main_cst_15 (constant S_ .f32 0x00000000#32),
    binary main_v44 main_cst_15 main_v45 ((fun x v => Host.reduceAdd x v reducesTo_S32768x496_S32768_d1 h_S_) : (⟨S32768x496, .f32⟩ : BufTy).Contents (Elt F) → (⟨S_, .f32⟩ : BufTy).Contents (Elt F) → (⟨S32768, .f32⟩ : BufTy).Contents (Elt F)),
    nullary main_cst_16 (constant S_ .f32 0x43F80000#32),
    unary main_cst_16 main_v46 (broadcastInDim S32768 ![] bcast_S_S32768 : (⟨S_, .f32⟩ : BufTy).Contents (Elt F) → (⟨S32768, .f32⟩ : BufTy).Contents (Elt F)),
    binary main_v45 main_v46 main_v47 (Host.divf : (⟨S32768, .f32⟩ : BufTy).Contents (Elt F) → (⟨S32768, .f32⟩ : BufTy).Contents (Elt F) → (⟨S32768, .f32⟩ : BufTy).Contents (Elt F)),
    unary main_v47 main_v48 (Host.negf : (⟨S32768, .f32⟩ : BufTy).Contents (Elt F) → (⟨S32768, .f32⟩ : BufTy).Contents (Elt F)) ]

end Cert.ReferenceIdeal.RefRun

end
-- ==== Proof.RefSpec.lean ====
/-
  The reference's result as one pure function of the flat score array, stage by stage.

  Integer stages (no input enters them): the strict upper triangle of a 32 × 32 grid as a 0/1 mask,
  flattened row-major to 1024 positions; its inclusive running count; a histogram of the running
  counts over 496 slots (each position adds one to the slot numbered by its count, counts outside
  the slots dropped); the running sum of the histogram, which numbers the flat position of each
  pair; the row and the column of that position (floor division and remainder by 32).
  Float stages: the scores as 32768 segments of 32; for each segment and each of the 496 pairs
  the two scores selected; the pair's term (log-sigmoid of the difference plus a small multiple
  of half the difference of squares); the sum over the pairs, divided by 496, negated.
-/
import proofs.«159058_j34986803593252_2_alg».proof.Proof.Gen.ReferenceIdeal
import Idealize.ShloMosaic.PureOps.Ideal

noncomputable section

namespace Cert.ReferenceIdeal.Spec

open Idealize.ShloMosaic Cert.ReferenceIdeal Cert.ReferenceIdeal.Gen

/-! ## The pairs' positions (integers only) -/

/-- A 32-bit scalar constant. -/
abbrev cI (v : BitVec 32) : IVec S_ 32 := constantI S_ 32 v
/-- A 32-bit constant over the 496 pairs, over the 1024 positions. -/
abbrev k496 (c : IVec S_ 32) : IVec S496 32 := broadcastInDim S496 ![] bcast_S_S496 c
abbrev k1024 (c : IVec S_ 32) : IVec S1024 32 := broadcastInDim S1024 ![] bcast_S_S1024 c
/-- The float zero over the 32 × 32 grid. -/
abbrev zeroGrid : FVec Ideal S32x32 .f32 := broadcastInDim S32x32 ![] bcast_S_S32x32 (constant S_ .f32 0x00000000#32)

/-- Row number and column number of a grid cell. -/
def rowNo : IVec S32x32 32 := addi (iotaInDim S32x32 32 0) (broadcastInDim S32x32 ![] bcast_S_S32x32 (cI 0#32))
def colNo : IVec S32x32 32 := iotaInDim S32x32 32 1
/-- Ones strictly above the diagonal, zeros on and below it. -/
def upperOnes : FVec Ideal S32x32 .f32 :=
  select (cmpi .sge rowNo colNo) zeroGrid (broadcastInDim S32x32 ![] bcast_S_S32x32 (constant S_ .f32 0x3F800000#32))
/-- The mask "strictly above the diagonal". -/
def upperMask : IVec S32x32 1 := cmpf .une upperOnes zeroGrid
/-- The mask flattened row-major, as 32-bit zeros and ones. -/
def maskFlat : IVec S1024 32 := extui 32 (shapeCast S1024 upperMask shapeCasts_S32x32_S1024) natLt_1_32
/-- The scalar zero the running sums start from. -/
abbrev zeroS : IVec S_ 32 := broadcastInDim S_ ![] bcast_S_S_ (cI 0#32)
/-- Inclusive running count of the mask. -/
def count : IVec S1024 32 :=
  Host.reduceWindow IntOp.addi ![1024] ![1] ![1023] ![0] maskFlat zeroS reduceWindows_S1024_S1024_w1024s1p1023_0 h_S_
/-- The count bounded below by zero, a negative one wrapped by 496: the slot a position adds to. -/
def countClip : IVec S1024 32 := maxsi (k1024 (cI 0#32)) count
def slot : IVec S1024 32 :=
  select (cmpi .slt countClip (k1024 (cI 0#32))) (addi countClip (k1024 (cI 496#32))) countClip
/-- The histogram: slot `k` holds how many positions have running count `k`. -/
def hist : IVec S496 32 :=
  Host.scatter scatter_S496_S1024x1_S1024_n_0_0_1 IntOp.addi (k496 (cI 0#32))
    (broadcastInDim S1024x1 ![0] bcast_S1024_S1024x1_0 slot) (k1024 (cI 1#32))
/-- Running sum of the histogram: the flat position of pair `k`. -/
def flatPos : IVec S496 32 :=
  Host.reduceWindow IntOp.addi ![496] ![1] ![495] ![0] hist zeroS reduceWindows_S496_S496_w496s1p495_0 h_S_

/-- Floor division by a scalar: the truncated quotient, less one where the signs differ and the
    division is inexact. -/
def floorDiv (a : IVec S496 32) (c : IVec S_ 32) : IVec S496 32 :=
  let q : IVec S496 32 := Host.divsi a (k496 c)
  let inexact : IVec S496 1 := cmpi .ne (Host.remsi a (k496 c)) (k496 (cI 0#32))
  select (andi (cmpi .ne (signi a) (k496 (signi c))) inexact) (subi q (k496 (cI 1#32))) q

/-- Remainder with the divisor's sign: the truncated remainder, plus the divisor where the signs
    differ and it is nonzero (a zero divisor read as one). -/
def floorRem (a : IVec S496 32) (c : IVec S_ 32) : IVec S496 32 :=
  let c' : IVec S_ 32 := select (cmpi .eq c (cI 0#32)) (cI 1#32) c
  let r : IVec S496 32 := Host.remsi a (k496 c')
  let rneg : IVec S496 1 := cmpi .slt r (k496 (cI 0#32))
  let cneg : IVec S496 1 := broadcastInDim S496 ![] bcast_S_S496 (cmpi .slt c' (cI 0#32))
  select (andi (cmpi .ne rneg cneg) (cmpi .ne r (k496 (cI 0#32)))) (addi r (k496 c')) r

/-- A negative index wrapped by 32. -/
def wrap32 (a : IVec S496 32) : IVec S496 32 :=
  select (cmpi .slt a (k496 (cI 0#32))) (addi a (k496 (cI 32#32))) a

/-- Row and column of each pair's flat position, as index columns. -/
def rowSel : IVec S496x1 32 :=
  broadcastInDim S496x1 ![0] bcast_S496_S496x1_0 (wrap32 (floorRem (floorDiv flatPos (cI 32#32)) (cI 32#32)))
def colSel : IVec S496x1 32 :=
  broadcastInDim S496x1 ![0] bcast_S496_S496x1_0 (wrap32 (floorRem (floorDiv flatPos (cI 1#32)) (cI 32#32)))

/-! ## The loss (floats) -/

/-- A float constant over segments × pairs. -/
abbrev kPairs (w : BitVec 32) : FVec Ideal S32768x496 .f32 :=
  broadcastInDim S32768x496 ![] bcast_S_S32768x496 (constant S_ .f32 w)

/-- The scores as 32768 segments of 32. -/
def seg (x : FVec Ideal S1048576 .f32) : FVec Ideal S32768x32 .f32 := shapeCast S32768x32 x shapeCasts_S1048576_S32768x32
/-- For each segment, the scores at the selected places. -/
def take (x : FVec Ideal S1048576 .f32) (sel : IVec S496x1 32) : FVec Ideal S32768x496 .f32 :=
  Host.gather gather_S32768x32_S496x1_S32768x496_0_1_n_n_1_1_327681 (seg x) sel

/-- log (1 + e^a), computed as max a 0 + log1p (e^(-|a|)). -/
def softplus (a : FVec Ideal S32768x496 .f32) : FVec Ideal S32768x496 .f32 :=
  let d : FVec Ideal S32768x496 .f32 := subf a (kPairs 0x00000000#32)
  select (cmpf .une d d) (addf a (kPairs 0x00000000#32))
    (addf (maximumf a (kPairs 0x00000000#32)) (Host.log1p (Host.exp (Host.negf (Host.absf d)))))
/-- log σ(a) = - log (1 + e^(-a)). -/
def logSigmoid (a : FVec Ideal S32768x496 .f32) : FVec Ideal S32768x496 .f32 := Host.negf (softplus (Host.negf a))

/-- One pair's term. -/
def pairTerm (p n : FVec Ideal S32768x496 .f32) : FVec Ideal S32768x496 .f32 :=
  addf (logSigmoid (subf p n)) (mulf (kPairs 0x3A83126F#32) (mulf (kPairs 0x3F000000#32) (subf (mulf p p) (mulf n n))))

/-- The reference's result: minus the mean of the pairs' terms, per segment. -/
def out (x : FVec Ideal S1048576 .f32) : FVec Ideal S32768 .f32 :=
  Host.negf (Host.divf
    (Host.reduceAdd (pairTerm (take x rowSel) (take x colSel)) (constant S_ .f32 0x00000000#32) reducesTo_S32768x496_S32768_d1 h_S_)
    (broadcastInDim S32768 ![] bcast_S_S32768 (constant S_ .f32 0x43F80000#32)))

end Cert.ReferenceIdeal.Spec

end
-- ==== Proof.RefRun.lean ====
/-
  The run of the reference program, read back. @main is the straight line of the 169 operations listed in RefOps (its
  two windows and the outlined functions unfolded at their calls), so from any memory with zero counters every weakly
  fair execution terminates with each buffer at the fold of the operations' results over the launch contents. At the
  ideal floats the fold at the result buffer is the staged pure function Spec.out of the score array, and the two
  arguments are left as they were.

  The fold is read stage by stage. The line is cut at the ends of the reference's own stages (the triangle's mask; its
  running count; the histogram; the flat positions; the two floor divisions and remainders; the two selections of
  scores; the loss), and each piece is read at an ARBITRARY valuation of the buffers: the buffer the stage computes is
  the corresponding function of RefSpec at the stage's inputs, the buffers later stages still read are unchanged.
  Composing the pieces substitutes each stage's value ONCE into the next stage's variable, where reading the whole
  line at once would copy it into every one of its readers (the flat positions are read four times by each floor
  division, whose quotient is read four times by the remainder, whose value is read three times by the wrap).
-/
import proofs.«159058_j34986803593252_2_alg».proof.Proof.RefOps
import proofs.«159058_j34986803593252_2_alg».proof.Proof.RefSpec
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the line, and the line's run -/

set_option maxRecDepth 8192 in
set_option maxHeartbeats 4000000 in
/-- @main is that straight line: its two windows and the functions' definitions unfolded at their calls and the
    records at their fields, both sides are one chain of operation steps once sequencing is reassociated. -/
theorem main_eq (c : Dev nD) : main (F := F) c = seq ops := by
  simp only [main, main_part0, main_part1, fn_triu.body, fn_cumsum.body, fn_cumsum_0.body, fn_clip.body, fn_cumsum_1.body,
    fn_cumsum_2.body, fn_floor_divide.body, fn_where.body, fn_remainder.body, fn_where_3.body, fn_log_sigmoid.body,
    fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the line touches TensorCore references only: each is one of the five builders. -/
theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub, and_self]

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are not written -/

set_option maxRecDepth 8192 in
set_option maxHeartbeats 4000000 in
/-- No operation writes the score array: each leaves it, its result buffer being another reference. -/
theorem arg0_eq (V : Valuation τ sig (Elt F)) :
    after ops V (main_arg0 : DevRef τ sig) = V (main_arg0 : DevRef τ sig) := by
  after_results_simp

set_option maxRecDepth 8192 in
set_option maxHeartbeats 4000000 in
/-- Nor the second argument, which no operation reads either. -/
theorem arg1_eq (V : Valuation τ sig (Elt F)) :
    after ops V (main_arg1 : DevRef τ sig) = V (main_arg1 : DevRef τ sig) := by
  after_results_simp

/-! ## The line in pieces -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The operations numbered i + 1 … i + n of the line. -/
def slice (i n : Nat) : List (HloOp τ sig (Elt F)) := (ops.drop i).take n

set_option maxRecDepth 8192 in
/-- The line cut at the stages' ends. -/
theorem ops_eq : (ops : List (HloOp τ sig (Elt F))) =
    slice 0 15 ++ (slice 15 5 ++ (slice 20 17 ++ (slice 37 3 ++ (slice 40 17 ++ (slice 57 22 ++ (slice 79 17 ++ (slice 96 22 ++ (slice 118 9 ++ (slice 127 9 ++ slice 136 33))))))))) := by
  rfl

/-- The fold over the line is the folds over the pieces, one after the other. -/
theorem after_ops (V : Valuation τ sig (Elt F)) :
    after ops V = after (slice 136 33) (after (slice 127 9) (after (slice 118 9) (after (slice 96 22) (after (slice 79 17)
      (after (slice 57 22) (after (slice 40 17) (after (slice 37 3) (after (slice 20 17) (after (slice 15 5) (after (slice 0 15) V)))))))))) := by
  conv_lhs => rw [ops_eq]
  simp only [after_append]

/-! ## The stages

Each stage is a consecutive piece of the line, read at an arbitrary valuation W of the buffers: the buffer it computes
holds the corresponding staged function of RefSpec applied to W at the stage's inputs, and a buffer that a later stage
still reads is left as it was (every operation of the piece writes another reference). -/

set_option maxRecDepth 8192 in
set_option maxHeartbeats 1000000 in
/-- Operations 1 … 15: the mask of the cells strictly above the diagonal, whatever the buffers held. -/
theorem s1a_v4 (W : Valuation τ sig (Elt Ideal)) :
    after (slice 0 15) W (main_v4 : DevRef τ sig)
      = Spec.upperMask := by
  simp only [slice, ops, List.drop_succ_cons, List.drop_zero, List.take_succ_cons, List.take_zero]
  after_results_simp
  rfl

set_option maxRecDepth 8192 in
set_option maxHeartbeats 1000000 in
/-- Operation 1 reshapes the scores into segments; operations 2 … 15 leave them. -/
theorem s1a_v0 (W : Valuation τ sig (Elt Ideal)) :
    after (slice 0 15) W (main_v0 : DevRef τ sig)
      = Spec.seg (W (main_arg0 : DevRef τ sig)) := by
  simp only [slice, ops, List.drop_succ_cons, List.drop_zero, List.take_succ_cons, List.take_zero]
  after_results_simp
  rfl

attribute [local irreducible] Host.reduceWindow in
set_option maxRecDepth 8192 in
set_option maxHeartbeats 1000000 in
/-- Operations 16 … 20: the mask flattened, as zeros and ones, and its inclusive running count. -/
theorem s1b_v5 (W : Valuation τ sig (Elt Ideal)) :
    after (slice 15 5) W (main_v5 : DevRef τ sig)
      = Host.reduceWindow IntOp.addi ![1024] ![1] ![1023] ![0]
          (extui 32 (shapeCast S1024 (W (main_v4 : DevRef τ sig)) shapeCasts_S32x32_S1024) natLt_1_32) Spec.zeroS
          reduceWindows_S1024_S1024_w1024s1p1023_0 h_S_ := by
  simp only [slice, ops, List.drop_succ_cons, List.drop_zero, List.take_succ_cons, List.take_zero]
  after_results_simp
  rfl

set_option maxRecDepth 8192 in
theorem s1b_keep_v0 (W : Valuation τ sig (Elt Ideal)) :
    after (slice 15 5) W (main_v0 : DevRef τ sig) = W (main_v0 : DevRef τ sig) := by
  simp only [slice, ops, List.drop_succ_cons, List.drop_zero, List.take_succ_cons, List.take_zero]
  after_results_simp

attribute [local irreducible] Host.scatter in
set_option maxRecDepth 8192 in
set_option maxHeartbeats 1000000 in
/-- Operations 21 … 37: the count bounded below by zero, wrapped by 496 where negative, and the histogram of the slots. -/
theorem s1c_v15 (W : Valuation τ sig (Elt Ideal)) :
    after (slice 20 17) W (main_v15 : DevRef τ sig)
      = Host.scatter scatter_S496_S1024x1_S1024_n_0_0_1 IntOp.addi (Spec.k496 (Spec.cI 0#32))
          (broadcastInDim S1024x1 ![0] bcast_S1024_S1024x1_0
            (select (cmpi .slt (maxsi (Spec.k1024 (Spec.cI 0#32)) (W (main_v5 : DevRef τ sig))) (Spec.k1024 (Spec.cI 0#32)))
              (addi (maxsi (Spec.k1024 (Spec.cI 0#32)) (W (main_v5 : DevRef τ sig))) (Spec.k1024 (Spec.cI 496#32)))
              (maxsi (Spec.k1024 (Spec.cI 0#32)) (W (main_v5 : DevRef τ sig)))))
          (Spec.k1024 (Spec.cI 1#32)) := by
  simp only [slice, ops, List.drop_succ_cons, List.drop_zero, List.take_succ_cons, List.take_zero]
  after_results_simp
  rfl

set_option maxRecDepth 8192 in
theorem s1c_keep_v0 (W : Valuation τ sig (Elt Ideal)) :
    after (slice 20 17) W (main_v0 : DevRef τ sig) = W (main_v0 : DevRef τ sig) := by
  simp only [slice, ops, List.drop_succ_cons, List.drop_zero, List.take_succ_cons, List.take_zero]
  after_results_simp

attribute [local irreducible] Host.reduceWindow in
set_option maxRecDepth 8192 in
set_option maxHeartbeats 1000000 in
/-- Operations 38 … 40: the running sum of the histogram. -/
theorem s1d_v16 (W : Valuation τ sig (Elt Ideal)) :
    after (slice 37 3) W (main_v16 : DevRef τ sig)
      = Host.reduceWindow IntOp.addi ![496] ![1] ![495] ![0] (W (main_v15 : DevRef τ sig)) Spec.zeroS
          reduceWindows_S496_S496_w496s1p495_0 h_S_ := by
  simp only [slice, ops, List.drop_succ_cons, List.drop_zero, List.take_succ_cons, List.take_zero]
  after_results_simp
  rfl

set_option maxRecDepth 8192 in
theorem s1d_keep_v0 (W : Valuation τ sig (Elt Ideal)) :
    after (slice 37 3) W (main_v0 : DevRef τ sig) = W (main_v0 : DevRef τ sig) := by
  simp only [slice, ops, List.drop_succ_cons, List.drop_zero, List.take_succ_cons, List.take_zero]
  after_results_simp

attribute [local irreducible] Host.divsi Host.remsi in
set_option maxRecDepth 8192 in
set_option maxHeartbeats 1000000 in
/-- Operations 41 … 57: the floor division of the flat positions by 32. -/
theorem s2_v17 (W : Valuation τ sig (Elt Ideal)) :
    after (slice 40 17) W (main_v17 : DevRef τ sig) = Spec.floorDiv (W (main_v16 : DevRef τ sig)) (Spec.cI 32#32) := by
  simp only [slice, ops, List.drop_succ_cons, List.drop_zero, List.take_succ_cons, List.take_zero]
  after_results_simp
  rfl

set_option maxRecDepth 8192 in
theorem s2_keep_v16 (W : Valuation τ sig (Elt Ideal)) :
    after (slice 40 17) W (main_v16 : DevRef τ sig) = W (main_v16 : DevRef τ sig) := by
  simp only [slice, ops, List.drop_succ_cons, List.drop_zero, List.take_succ_cons, List.take_zero]
  after_results_simp

set_option maxRecDepth 8192 in
theorem s2_keep_v0 (W : Valuation τ sig (Elt Ideal)) :
    after (slice 40 17) W (main_v0 : DevRef τ sig) = W (main_v0 : DevRef τ sig) := by
  simp only [slice, ops, List.drop_succ_cons, List.drop_zero, List.take_succ_cons, List.take_zero]
  after_results_simp

attribute [local irreducible] Host.divsi Host.remsi in
set_option maxRecDepth 8192 in
set_option maxHeartbeats 1000000 in
/-- Operations 58 … 79: the remainder of that quotient by 32, with the divisor's sign. -/
theorem s3_v18 (W : Valuation τ sig (Elt Ideal)) :
    after (slice 57 22) W (main_v18 : DevRef τ sig) = Spec.floorRem (W (main_v17 : DevRef τ sig)) (Spec.cI 32#32) := by
  simp only [slice, ops, List.drop_succ_cons, List.drop_zero, List.take_succ_cons, List.take_zero]
  after_results_simp
  rfl

set_option maxRecDepth 8192 in
theorem s3_keep_v16 (W : Valuation τ sig (Elt Ideal)) :
    after (slice 57 22) W (main_v16 : DevRef τ sig) = W (main_v16 : DevRef τ sig) := by
  simp only [slice, ops, List.drop_succ_cons, List.drop_zero, List.take_succ_cons, List.take_zero]
  after_results_simp

set_option maxRecDepth 8192 in
theorem s3_keep_v0 (W : Valuation τ sig (Elt Ideal)) :
    after (slice 57 22) W (main_v0 : DevRef τ sig) = W (main_v0 : DevRef τ sig) := by
  simp only [slice, ops, List.drop_succ_cons, List.drop_zero, List.take_succ_cons, List.take_zero]
  after_results_simp

attribute [local irreducible] Host.divsi Host.remsi in
set_option maxRecDepth 8192 in
set_option maxHeartbeats 1000000 in
/-- Operations 80 … 96: the floor division of the flat positions by 1. -/
theorem s4_v19 (W : Valuation τ sig (Elt Ideal)) :
    after (slice 79 17) W (main_v19 : DevRef τ sig) = Spec.floorDiv (W (main_v16 : DevRef τ sig)) (Spec.cI 1#32) := by
  simp only [slice, ops, List.drop_succ_cons, List.drop_zero, List.take_succ_cons, List.take_zero]
  after_results_simp
  rfl

set_option maxRecDepth 8192 in
theorem s4_keep_v18 (W : Valuation τ sig (Elt Ideal)) :
    after (slice 79 17) W (main_v18 : DevRef τ sig) = W (main_v18 : DevRef τ sig) := by
  simp only [slice, ops, List.drop_succ_cons, List.drop_zero, List.take_succ_cons, List.take_zero]
  after_results_simp

set_option maxRecDepth 8192 in
theorem s4_keep_v0 (W : Valuation τ sig (Elt Ideal)) :
    after (slice 79 17) W (main_v0 : DevRef τ sig) = W (main_v0 : DevRef τ sig) := by
  simp only [slice, ops, List.drop_succ_cons, List.drop_zero, List.take_succ_cons, List.take_zero]
  after_results_simp

attribute [local irreducible] Host.divsi Host.remsi in
set_option maxRecDepth 8192 in
set_option maxHeartbeats 1000000 in
/-- Operations 97 … 118: the remainder of that quotient by 32. -/
theorem s5_v20 (W : Valuation τ sig (Elt Ideal)) :
    after (slice 96 22) W (main_v20 : DevRef τ sig) = Spec.floorRem (W (main_v19 : DevRef τ sig)) (Spec.cI 32#32) := by
  simp only [slice, ops, List.drop_succ_cons, List.drop_zero, List.take_succ_cons, List.take_zero]
  after_results_simp
  rfl

set_option maxRecDepth 8192 in
theorem s5_keep_v18 (W : Valuation τ sig (Elt Ideal)) :
    after (slice 96 22) W (main_v18 : DevRef τ sig) = W (main_v18 : DevRef τ sig) := by
  simp only [slice, ops, List.drop_succ_cons, List.drop_zero, List.take_succ_cons, List.take_zero]
  after_results_simp

set_option maxRecDepth 8192 in
theorem s5_keep_v0 (W : Valuation τ sig (Elt Ideal)) :
    after (slice 96 22) W (main_v0 : DevRef τ sig) = W (main_v0 : DevRef τ sig) := by
  simp only [slice, ops, List.drop_succ_cons, List.drop_zero, List.take_succ_cons, List.take_zero]
  after_results_simp

attribute [local irreducible] Host.gather in
set_option maxRecDepth 8192 in
set_option maxHeartbeats 1000000 in
/-- Operations 119 … 127: the row indices wrapped, as a column, and the segments' scores at them. -/
theorem s6_v27 (W : Valuation τ sig (Elt Ideal)) :
    after (slice 118 9) W (main_v27 : DevRef τ sig)
      = Host.gather gather_S32768x32_S496x1_S32768x496_0_1_n_n_1_1_327681 (W (main_v0 : DevRef τ sig))
          (broadcastInDim S496x1 ![0] bcast_S496_S496x1_0 (Spec.wrap32 (W (main_v18 : DevRef τ sig)))) := by
  simp only [slice, ops, List.drop_succ_cons, List.drop_zero, List.take_succ_cons, List.take_zero]
  after_results_simp
  rfl

set_option maxRecDepth 8192 in
theorem s6_keep_v20 (W : Valuation τ sig (Elt Ideal)) :
    after (slice 118 9) W (main_v20 : DevRef τ sig) = W (main_v20 : DevRef τ sig) := by
  simp only [slice, ops, List.drop_succ_cons, List.drop_zero, List.take_succ_cons, List.take_zero]
  after_results_simp

set_option maxRecDepth 8192 in
theorem s6_keep_v0 (W : Valuation τ sig (Elt Ideal)) :
    after (slice 118 9) W (main_v0 : DevRef τ sig) = W (main_v0 : DevRef τ sig) := by
  simp only [slice, ops, List.drop_succ_cons, List.drop_zero, List.take_succ_cons, List.take_zero]
  after_results_simp

attribute [local irreducible] Host.gather in
set_option maxRecDepth 8192 in
set_option maxHeartbeats 1000000 in
/-- Operations 128 … 136: the same for the column indices. -/
theorem s7_v34 (W : Valuation τ sig (Elt Ideal)) :
    after (slice 127 9) W (main_v34 : DevRef τ sig)
      = Host.gather gather_S32768x32_S496x1_S32768x496_0_1_n_n_1_1_327681 (W (main_v0 : DevRef τ sig))
          (broadcastInDim S496x1 ![0] bcast_S496_S496x1_0 (Spec.wrap32 (W (main_v20 : DevRef τ sig)))) := by
  simp only [slice, ops, List.drop_succ_cons, List.drop_zero, List.take_succ_cons, List.take_zero]
  after_results_simp
  rfl

set_option maxRecDepth 8192 in
theorem s7_keep_v27 (W : Valuation τ sig (Elt Ideal)) :
    after (slice 127 9) W (main_v27 : DevRef τ sig) = W (main_v27 : DevRef τ sig) := by
  simp only [slice, ops, List.drop_succ_cons, List.drop_zero, List.take_succ_cons, List.take_zero]
  after_results_simp

attribute [local irreducible] Host.reduceAdd in
set_option maxRecDepth 8192 in
set_option maxHeartbeats 2000000 in
/-- Operations 137 … 169, floats: the pairs' terms, their sum per segment, the division by 496, the negation. -/
theorem s8_v48 (W : Valuation τ sig (Elt Ideal)) :
    after (slice 136 33) W (main_v48 : DevRef τ sig)
      = Host.negf (Host.divf
          (Host.reduceAdd (Spec.pairTerm (W (main_v27 : DevRef τ sig)) (W (main_v34 : DevRef τ sig)))
            (constant S_ .f32 0x00000000#32) reducesTo_S32768x496_S32768_d1 h_S_)
          (broadcastInDim S32768 ![] bcast_S_S32768 (constant S_ .f32 0x43F80000#32))) := by
  simp only [slice, ops, List.drop_succ_cons, List.drop_zero, List.take_succ_cons, List.take_zero]
  after_results_simp
  rfl

/-! ## The result -/

attribute [local irreducible] Host.reduceWindow Host.scatter Host.gather Host.reduceAdd Host.divsi Host.remsi in
set_option maxRecDepth 8192 in
set_option maxHeartbeats 1000000 in
/-- The fold at the result buffer is the staged function of the score array: the pieces in turn from the last, each
    read at what the earlier ones left; what remains is Spec.out with its stages' definitions unfolded. -/
theorem out_eq (V : Valuation τ sig (Elt Ideal)) :
    after ops V (main_v48 : DevRef τ sig) = Spec.out (V (main_arg0 : DevRef τ sig)) := by
  rw [after_ops, s8_v48, s7_v34, s7_keep_v27, s6_v27, s6_keep_v20, s6_keep_v0, s5_v20, s5_keep_v18, s5_keep_v0,
    s4_v19, s4_keep_v18, s4_keep_v0, s3_v18, s3_keep_v16, s3_keep_v0, s2_v17, s2_keep_v16, s2_keep_v0,
    s1d_v16, s1d_keep_v0, s1c_v15, s1c_keep_v0, s1b_v5, s1b_keep_v0, s1a_v4, s1a_v0]
  rfl

/-- At the compiled mesh, at the ideal floats, from any memory with zero counters: every weakly fair execution of the
    reference terminates with the result buffer at Spec.out of the score array's launch contents and both arguments
    as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48) = Spec.out (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c main_v48).trans (out_eq _),
      (h c main_arg0).trans (arg0_eq _),
      (h c main_arg1).trans (arg1_eq _)⟩)
    (run_main m ρ)

end Cert.ReferenceIdeal.RefRun

end
-- ==== Proof.LibSelect.lean ====
import Mathlib

/-!
# Selecting the ones of a 0/1 mask by running counts

For a 0/1 mask `b` on `Fin n` with `K` ones, let `cnt p` be the number of ones at positions
`≤ p`, `hist k` the number of positions whose running count equals `k`, and `pos k` the running
sum of `hist` up to `k`.  Then for `k < K` the number `pos k` is the position of the
`(k+1)`-th one of the mask, and summing a function over the positions `pos 0, …, pos (K-1)` is the
same as the masked sum over all positions.
-/

namespace SelectByCount

variable (n K : ℕ) (b : Fin n → ℕ)

/-- inclusive running count -/
def cnt (p : Fin n) : ℕ := ∑ q : Fin n, if q ≤ p then b q else 0
/-- how many positions have running count exactly k -/
def hist (k : ℕ) : ℕ := ∑ p : Fin n, if cnt n b p = k then 1 else 0
/-- running sum of the histogram over Fin K -/
def pos (k : ℕ) : ℕ := ∑ k' : Fin K, if k'.val ≤ k then hist n b k'.val else 0

/-- The running count is monotone in the position. -/
theorem cnt_mono {p p' : Fin n} (h : p ≤ p') : cnt n b p ≤ cnt n b p' := by
  unfold cnt
  apply Finset.sum_le_sum
  intro q _
  by_cases hq : q ≤ p
  · rw [if_pos hq, if_pos (le_trans hq h)]
  · rw [if_neg hq]; exact Nat.zero_le _

/-- At the last position the running count is the total number of ones. -/
theorem cnt_last (p : Fin n) (hp : p.val + 1 = n) : cnt n b p = ∑ q : Fin n, b q := by
  unfold cnt
  apply Finset.sum_congr rfl
  intro q _
  rw [if_pos]
  rw [Fin.le_def]
  have := q.isLt
  omega

/-- At position zero the running count is the mask value there. -/
theorem cnt_zero (p : Fin n) (hp : p.val = 0) : cnt n b p = b p := by
  unfold cnt
  rw [Finset.sum_eq_single p]
  · simp
  · intro q _ hne
    rw [if_neg]
    intro hle
    apply hne
    apply Fin.ext
    rw [Fin.le_def] at hle
    omega
  · intro h; exact absurd (Finset.mem_univ _) h

/-- Moving one position to the right adds the mask value at the new position. -/
theorem cnt_succ (p q : Fin n) (h : q.val + 1 = p.val) : cnt n b p = cnt n b q + b p := by
  unfold cnt
  have hpt : ∀ x : Fin n, (if x ≤ p then b x else 0)
      = (if x ≤ q then b x else 0) + (if x = p then b x else 0) := by
    intro x
    by_cases h1 : x ≤ q
    · have h2 : x ≤ p := by rw [Fin.le_def] at *; omega
      have h3 : x ≠ p := by intro e; rw [e, Fin.le_def] at h1; omega
      rw [if_pos h1, if_pos h2, if_neg h3, add_zero]
    · by_cases h3 : x = p
      · have h2 : x ≤ p := by rw [h3]
        rw [if_neg h1, if_pos h2, if_pos h3, zero_add]
      · have h2 : ¬ x ≤ p := by
          intro hle
          rw [Fin.le_def] at hle h1
          apply h3
          apply Fin.ext
          omega
        rw [if_neg h1, if_neg h2, if_neg h3]
  simp_rw [hpt]
  rw [Finset.sum_add_distrib, Fintype.sum_ite_eq']

/-- A downward closed finite set of positions is an initial segment: membership is the same as
being smaller than the cardinality. -/
theorem mem_iff_lt_card (S : Finset (Fin n)) (hS : ∀ p ∈ S, ∀ q : Fin n, q ≤ p → q ∈ S)
    (p : Fin n) : p ∈ S ↔ p.val < S.card := by
  constructor
  · intro hp
    have hsub : Finset.Iic p ⊆ S := by
      intro q hq
      exact hS p hp q (Finset.mem_Iic.mp hq)
    have hc := Finset.card_le_card hsub
    rw [Fin.card_Iic] at hc
    omega
  · intro hlt
    by_contra hp
    have hsub : S ⊆ Finset.Iio p := by
      intro q hq
      rw [Finset.mem_Iio]
      by_contra hnot
      exact hp (hS q hq p (not_lt.mp hnot))
    have hc := Finset.card_le_card hsub
    rw [Fin.card_Iio] at hc
    omega

/-- For `k < K`, `pos k` is the number of positions whose running count is at most `k`. -/
theorem pos_eq_card (k : ℕ) (hk : k < K) :
    pos n K b k = (Finset.univ.filter fun p : Fin n => cnt n b p ≤ k).card := by
  unfold pos hist
  rw [Finset.card_filter]
  have h1 : ∀ k' : Fin K,
      (if k'.val ≤ k then (∑ p : Fin n, if cnt n b p = k'.val then 1 else 0) else 0)
        = ∑ p : Fin n, if (k'.val ≤ k ∧ cnt n b p = k'.val) then 1 else 0 := by
    intro k'
    by_cases h : k'.val ≤ k <;> simp [h]
  simp_rw [h1]
  rw [Finset.sum_comm]
  apply Finset.sum_congr rfl
  intro p _
  by_cases hp : cnt n b p ≤ k
  · rw [if_pos hp]
    have hlt : cnt n b p < K := lt_of_le_of_lt hp hk
    rw [Finset.sum_eq_single (⟨cnt n b p, hlt⟩ : Fin K)]
    · simp [hp]
    · intro k' _ hne
      rw [if_neg]
      rintro ⟨_, h2⟩
      exact hne (Fin.ext h2.symm)
    · intro h; exact absurd (Finset.mem_univ _) h
  · rw [if_neg hp]
    apply Finset.sum_eq_zero
    intro k' _
    rw [if_neg]
    rintro ⟨h1, h2⟩
    exact hp (h2 ▸ h1)

/-- For `k < K`, the positions whose running count is at most `k` are exactly the positions
before `pos k`. -/
theorem cnt_le_iff_lt_pos (k : ℕ) (hk : k < K) (p : Fin n) :
    cnt n b p ≤ k ↔ p.val < pos n K b k := by
  have h := mem_iff_lt_card n (Finset.univ.filter fun p : Fin n => cnt n b p ≤ k)
    (by
      intro p hp q hq
      simp only [Finset.mem_filter, Finset.mem_univ, true_and] at hp ⊢
      exact le_trans (cnt_mono n b hq) hp) p
  rw [pos_eq_card n K b k hk, ← h]
  simp

/-- If the mask has `K` ones and `k < K`, then `pos k` is a valid position. -/
theorem pos_lt (hb : ∀ q, b q ≤ 1) (hK : ∑ q : Fin n, b q = K) (k : ℕ) (hk : k < K) :
    pos n K b k < n := by
  have hn : 0 < n := by
    rcases Nat.eq_zero_or_pos n with h0 | h0
    · subst h0
      simp at hK
      omega
    · exact h0
  have hl : cnt n b ⟨n - 1, by omega⟩ = K := by
    rw [cnt_last n b ⟨n - 1, by omega⟩ (by show n - 1 + 1 = n; omega), hK]
  have hnot : ¬ ((⟨n - 1, by omega⟩ : Fin n).val < pos n K b k) := by
    rw [← cnt_le_iff_lt_pos n K b k hk ⟨n - 1, by omega⟩]
    omega
  have hnot' : ¬ (n - 1 < pos n K b k) := hnot
  omega

/-- At a position `m = pos k` (with `k < K`) the running count is `k + 1` and the mask is one. -/
theorem cnt_and_b_at_pos (hb : ∀ q, b q ≤ 1) (k : ℕ) (hk : k < K)
    (m : ℕ) (hm : m = pos n K b k) (hlt : m < n) :
    cnt n b ⟨m, hlt⟩ = k + 1 ∧ b ⟨m, hlt⟩ = 1 := by
  have hiff : ∀ p : Fin n, cnt n b p ≤ k ↔ p.val < m := by
    intro p; rw [hm]; exact cnt_le_iff_lt_pos n K b k hk p
  have hbm := hb ⟨m, hlt⟩
  have h1 : ¬ cnt n b ⟨m, hlt⟩ ≤ k := by
    rw [hiff]; simp
  rcases Nat.eq_zero_or_pos m with h0 | h0
  · have hc := cnt_zero n b ⟨m, hlt⟩ h0
    constructor <;> omega
  · have hq : cnt n b ⟨m - 1, by omega⟩ ≤ k := by
      rw [hiff]; show m - 1 < m; omega
    have hc := cnt_succ n b ⟨m, hlt⟩ ⟨m - 1, by omega⟩ (by show m - 1 + 1 = m; omega)
    constructor <;> omega

/-- If the mask has `K` ones and `k < K`, then the mask is one at position `pos k`. -/
theorem b_pos (hb : ∀ q, b q ≤ 1) (hK : ∑ q : Fin n, b q = K) (k : ℕ) (hk : k < K) :
    b ⟨pos n K b k, pos_lt n K b hb hK k hk⟩ = 1 :=
  (cnt_and_b_at_pos n K b hb k hk (pos n K b k) rfl (pos_lt n K b hb hK k hk)).2

/-- If the mask has `K` ones and `k < K`, then the running count at position `pos k` is `k + 1`:
`pos k` is the position of the `(k+1)`-th one. -/
theorem cnt_pos (hb : ∀ q, b q ≤ 1) (hK : ∑ q : Fin n, b q = K) (k : ℕ) (hk : k < K) :
    cnt n b ⟨pos n K b k, pos_lt n K b hb hK k hk⟩ = k + 1 :=
  (cnt_and_b_at_pos n K b hb k hk (pos n K b k) rfl (pos_lt n K b hb hK k hk)).1

/-- If the mask has `K` ones, then `k ↦ pos k` enumerates the ones of the mask without
repetition, so the sum of `f` over the selected positions `pos 0, …, pos (K-1)` equals the masked
sum of `f` over all positions. -/
theorem sum_pos {M : Type*} [AddCommMonoid M] (hb : ∀ q, b q ≤ 1) (hK : ∑ q : Fin n, b q = K)
    (f : Fin n → M) :
    ∑ k : Fin K, f ⟨pos n K b k.val, pos_lt n K b hb hK k.val k.isLt⟩
      = ∑ q : Fin n, if b q = 1 then f q else 0 := by
  let g : Fin K → Fin n := fun k => ⟨pos n K b k.val, pos_lt n K b hb hK k.val k.isLt⟩
  have hcnt : ∀ k : Fin K, cnt n b (g k) = k.val + 1 :=
    fun k => cnt_pos n K b hb hK k.val k.isLt
  have hbg : ∀ k : Fin K, b (g k) = 1 := fun k => b_pos n K b hb hK k.val k.isLt
  have hinj : Function.Injective g := by
    intro k k' h
    have h1 := hcnt k
    rw [h, hcnt k'] at h1
    exact Fin.ext (by omega)
  have hsub : Finset.univ.image g ⊆ Finset.univ.filter (fun q : Fin n => b q = 1) := by
    intro q hq
    rw [Finset.mem_image] at hq
    obtain ⟨k, _, rfl⟩ := hq
    simp [hbg k]
  have hcard1 : (Finset.univ.image g).card = K := by
    rw [Finset.card_image_of_injective _ hinj]; simp
  have hcard2 : (Finset.univ.filter (fun q : Fin n => b q = 1)).card = K := by
    rw [Finset.card_filter, ← hK]
    apply Finset.sum_congr rfl
    intro q _
    have := hb q
    by_cases h : b q = 1
    · rw [if_pos h, h]
    · rw [if_neg h]; omega
  have heq : Finset.univ.image g = Finset.univ.filter (fun q : Fin n => b q = 1) :=
    Finset.eq_of_subset_of_card_le hsub (by rw [hcard1, hcard2])
  calc ∑ k : Fin K, f ⟨pos n K b k.val, pos_lt n K b hb hK k.val k.isLt⟩
      = ∑ k : Fin K, f (g k) := rfl
    _ = ∑ q ∈ Finset.univ.image g, f q := by
        rw [Finset.sum_image]; intro x _ y _ h; exact hinj h
    _ = ∑ q ∈ Finset.univ.filter (fun q : Fin n => b q = 1), f q := by rw [heq]
    _ = ∑ q : Fin n, if b q = 1 then f q else 0 := by rw [Finset.sum_filter]

end SelectByCount
-- ==== Proof.PairOrder.lean ====
import Mathlib
import proofs.«159058_j34986803593252_2_alg».proof.Proof.LibSelect

/-!
# Enumerating the pairs `i < j` of a 32 × 32 grid by running counts

The 32 × 32 grid is flattened row-major to 1024 positions, position `q = 32 i + j` carrying a one
exactly when `i < j`; there are 496 ones.  Selection by running counts gives, for `k < 496`, the flat
position `posN k` of the `(k+1)`-th one, so `k ↦ (posN k / 32, posN k % 32)` enumerates the pairs
`i < j` exactly once, and a sum over the 496 selected pairs is the masked double sum.
-/

namespace RankLoss.PairOrder

/-- One strictly above the diagonal: flat position q = 32 i + j with i < j. -/
def tri (q : Fin 1024) : ℕ := if q.val / 32 < q.val % 32 then 1 else 0

/-- The mask takes the values zero and one only. -/
theorem tri_le (q : Fin 1024) : tri q ≤ 1 := by unfold tri; split <;> omega

/-- There are 496 pairs `i < j` with `i, j < 32`. -/
theorem tri_sum : ∑ q : Fin 1024, tri q = 496 := by decide +kernel

/-- The inclusive running count of the mask. -/
abbrev cntN (p : Fin 1024) : ℕ := SelectByCount.cnt 1024 tri p
/-- How many positions have running count exactly `k`. -/
abbrev histN (k : ℕ) : ℕ := SelectByCount.hist 1024 tri k
/-- The flat position of the `(k+1)`-th one of the mask (for `k < 496`). -/
abbrev posN (k : ℕ) : ℕ := SelectByCount.pos 1024 496 tri k

/-- A running count is at most the total number of ones. -/
theorem cntN_le (p : Fin 1024) : cntN p ≤ 496 := by
  unfold cntN SelectByCount.cnt
  rw [← tri_sum]
  exact Finset.sum_le_sum fun q _ => by split <;> omega

/-- The position of the `(k+1)`-th one is a position of the grid. -/
theorem posN_lt (k : Fin 496) : posN k.val < 1024 :=
  SelectByCount.pos_lt 1024 496 tri tri_le tri_sum k.val k.isLt

/-- Row-major flattening of the grid: the pair `(i, j)` is the flat position `32 i + j`, and a flat
position `q` is the pair `(q / 32, q % 32)`. -/
def flatEquiv : Fin 32 × Fin 32 ≃ Fin 1024 where
  toFun ij := ⟨32 * ij.1.val + ij.2.val, by have := ij.1.isLt; have := ij.2.isLt; omega⟩
  invFun q := (⟨q.val / 32, by have := q.isLt; omega⟩, ⟨q.val % 32, Nat.mod_lt _ (by norm_num)⟩)
  left_inv ij := by
    have h1 := ij.1.isLt
    have h2 := ij.2.isLt
    exact Prod.ext
      (Fin.ext (by show (32 * ij.1.val + ij.2.val) / 32 = ij.1.val; omega))
      (Fin.ext (by show (32 * ij.1.val + ij.2.val) % 32 = ij.2.val; omega))
  right_inv q := Fin.ext (by show 32 * (q.val / 32) + q.val % 32 = q.val; omega)

/-- The sum over the 496 selected pairs `(posN k / 32, posN k % 32)` is the double sum over the pairs
`i < j`: the selected positions are exactly the ones of the mask, each once, and flat position
`32 i + j` carries a one exactly when `i < j`. -/
theorem sum_pairs {M : Type*} [AddCommMonoid M] (t : Fin 32 → Fin 32 → M) :
    ∑ k : Fin 496, t ⟨posN k.val / 32, by have := posN_lt k; omega⟩
        ⟨posN k.val % 32, Nat.mod_lt _ (by norm_num)⟩
      = ∑ j : Fin 32, ∑ i : Fin 32, if i < j then t i j else 0 := by
  -- the summand as a function of the flat position
  let F : Fin 1024 → M := fun q =>
    t ⟨q.val / 32, by have := q.isLt; omega⟩ ⟨q.val % 32, Nat.mod_lt _ (by norm_num)⟩
  have hL : (∑ k : Fin 496, t ⟨posN k.val / 32, by have := posN_lt k; omega⟩
        ⟨posN k.val % 32, Nat.mod_lt _ (by norm_num)⟩)
      = ∑ q : Fin 1024, if tri q = 1 then F q else 0 :=
    SelectByCount.sum_pos 1024 496 tri tri_le tri_sum F
  have hcoord : ∀ (a b : ℕ) (ha : a < 32) (hb : b < 32) (i j : Fin 32), a = i.val → b = j.val →
      t ⟨a, ha⟩ ⟨b, hb⟩ = t i j := by
    intro a b ha hb i j h1 h2
    subst h1 h2
    rfl
  have hpt : ∀ i j : Fin 32,
      (if tri (flatEquiv (i, j)) = 1 then F (flatEquiv (i, j)) else 0) = if i < j then t i j else 0 := by
    intro i j
    have hi := i.isLt
    have hj := j.isLt
    have hd : (32 * i.val + j.val) / 32 = i.val := by omega
    have hm : (32 * i.val + j.val) % 32 = j.val := by omega
    have hF : F (flatEquiv (i, j)) = t i j := hcoord _ _ _ _ i j hd hm
    have htri : tri (flatEquiv (i, j)) = 1 ↔ i < j := by
      unfold tri
      show (if (32 * i.val + j.val) / 32 < (32 * i.val + j.val) % 32 then 1 else 0) = 1 ↔ i < j
      rw [hd, hm]
      constructor
      · intro h
        by_contra hc
        rw [if_neg (fun h' => hc (Fin.lt_def.mpr h'))] at h
        exact absurd h (by decide)
      · intro h
        rw [if_pos (Fin.lt_def.mp h)]
    by_cases hc : i < j
    · rw [if_pos hc, if_pos (htri.mpr hc), hF]
    · rw [if_neg hc, if_neg (fun h => hc (htri.mp h))]
  rw [hL, ← Equiv.sum_comp flatEquiv, Fintype.sum_prod_type, Finset.sum_comm]
  apply Finset.sum_congr rfl
  intro j _
  apply Finset.sum_congr rfl
  intro i _
  exact hpt i j

end RankLoss.PairOrder
-- ==== Proof.LibPrefixSum.lean ====
import Idealize.ShloMosaic.PureOps.Contract
import Idealize.ShloMosaic.Lib.ValueIdx
import Mathlib.Data.BitVec

open scoped BigOperators

namespace Idealize.ShloMosaic.PrefixSum

open Idealize.ShloMosaic Idealize.ShloMosaic.ValueIdx

/-- A left fold that adds `g m` at each step is the start value plus the sum of the `g m`. -/
theorem foldl_add_eq_sum {M : Type*} [AddCommMonoid M] {ι : Type*} (g : ι → M) (l : List ι) (v : M) :
    l.foldl (fun r m => r + g m) v = v + (l.map g).sum := by
  induction l generalizing v with
  | nil => simp
  | cons a l ih => rw [List.foldl_cons, ih, List.map_cons, List.sum_cons, add_assoc]

/-- A rank-one index is its one coordinate. -/
def idxEquiv1 (n : ℕ) : (⟨1, ![n]⟩ : Shape).Idx ≃ Fin n where
  toFun i := i 0
  invFun a := ix1 a
  left_inv i := (eq_ix1 i).symm
  right_inv _ := rfl

/-- A sum over a rank-one index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 n).symm f]
  rfl

/-- Summing `f j` over the `j < n` with `j ≤ p` is summing over `j < p + 1`, when `p < n`. -/
theorem sum_range_ite_le {M : Type*} [AddCommMonoid M] (f : ℕ → M) (n p : ℕ) (hp : p < n) :
    ∑ j ∈ Finset.range n, (if j ≤ p then f j else 0) = ∑ j ∈ Finset.range (p + 1), f j := by
  rw [← Finset.sum_filter]
  congr 1
  ext j
  simp only [Finset.mem_filter, Finset.mem_range]
  omega

/-- Reflecting a window: with `lo = n - 1`, the window positions `r < n` with `lo ≤ p + r` read the
positions `p + r - lo`, which are exactly the positions `q ≤ p`. -/
theorem sum_window_reflect {M : Type*} [AddCommMonoid M] (f : ℕ → M) (n lo p : ℕ) (hlo : lo + 1 = n)
    (hp : p < n) :
    ∑ r ∈ Finset.range n, (if lo ≤ p + r then f (p + r - lo) else 0)
      = ∑ q ∈ Finset.range n, (if q ≤ p then f q else 0) := by
  calc ∑ r ∈ Finset.range n, (if lo ≤ p + r then f (p + r - lo) else 0)
      = ∑ j ∈ Finset.range n, (if lo ≤ p + (n - 1 - j) then f (p + (n - 1 - j) - lo) else 0) :=
        (Finset.sum_range_reflect (fun r => if lo ≤ p + r then f (p + r - lo) else 0) n).symm
    _ = ∑ j ∈ Finset.range n, (if j ≤ p then f (p + 1 - 1 - j) else 0) := by
        apply Finset.sum_congr rfl
        intro j hj
        rw [Finset.mem_range] at hj
        by_cases hc : j ≤ p
        · rw [if_pos hc, if_pos (by omega)]
          congr 1
          omega
        · rw [if_neg hc, if_neg (by omega)]
    _ = ∑ j ∈ Finset.range (p + 1), f (p + 1 - 1 - j) :=
        sum_range_ite_le (fun j => f (p + 1 - 1 - j)) n p hp
    _ = ∑ q ∈ Finset.range (p + 1), f q := Finset.sum_range_reflect f (p + 1)
    _ = ∑ q ∈ Finset.range n, (if q ≤ p then f q else 0) := (sum_range_ite_le f n p hp).symm

/-- An inclusive running sum read at a position: the windowed sum with window `n`, stride one and
`lo = n - 1` cells of low padding holding the initial value zero, at position `p`, is the sum of the
operand over the positions `q ≤ p`.  (Window position `r` reads operand position `p + r - lo` when
`lo ≤ p + r` and the padding otherwise; reflecting `r` turns these into the positions `q ≤ p`.) -/
theorem reduceWindow_prefix_apply (n lo : ℕ) (hlo : lo + 1 = n) (x : IVec (⟨1, ![n]⟩ : Shape) 32)
    (z : IVec (⟨0, ![]⟩ : Shape) 32) (hz : z ix0 = 0#32)
    (h : (⟨1, ![n]⟩ : Shape).ReduceWindows (![n] : Fin 1 → Nat) ![1] ![lo] ![0] (⟨1, ![n]⟩ : Shape))
    (hu : 0 < (⟨0, ![]⟩ : Shape).numel) (p : Fin n) :
    Host.reduceWindow IntOp.addi (![n] : Fin 1 → Nat) ![1] ![lo] ![0] x z h hu (ix1 p)
      = ∑ q : Fin n, if q ≤ p then x (ix1 q) else 0#32 := by
  have hv : z (Shape.Idx.first hu) = 0#32 := by rw [eq_ix0 (Shape.Idx.first hu)]; exact hz
  -- the operand read at a natural-number position, zero outside
  let xx : ℕ → BitVec 32 := fun m => if hm : m < n then x (ix1 ⟨m, hm⟩) else 0#32
  unfold Host.reduceWindow
  simp only [IntOp.addi]
  rw [foldl_add_eq_sum, hv, BitVec.zero_add, ← Fin.sum_univ_def,
    ← Equiv.sum_comp (Shape.rowMajor (⟨1, ![n]⟩ : Shape))]
  simp only [Equiv.symm_apply_apply]
  rw [sum_idx1]
  trans ∑ r : Fin n, (fun r : ℕ => if lo ≤ p.val + r then xx (p.val + r - lo) else 0#32) r.val
  · apply Finset.sum_congr rfl
    intro r _
    have hr := r.isLt
    have hp := p.isLt
    split
    · rename_i hin
      have h0 := hin 0
      change lo ≤ p.val * 1 + r.val ∧ p.val * 1 + r.val - lo < n at h0
      show _ = if lo ≤ p.val + r.val then xx (p.val + r.val - lo) else 0#32
      rw [if_pos (by omega)]
      show _ = if hm : p.val + r.val - lo < n then x (ix1 ⟨_, hm⟩) else 0#32
      rw [dif_pos (by omega)]
      congr 1
      funext a
      obtain rfl : a = 0 := Subsingleton.elim _ _
      apply Fin.ext
      show p.val * 1 + r.val - lo = p.val + r.val - lo
      omega
    · rename_i hin
      show _ = if lo ≤ p.val + r.val then xx (p.val + r.val - lo) else 0#32
      rw [if_neg]
      intro hc
      apply hin
      intro a
      obtain rfl : a = 0 := Subsingleton.elim _ _
      show lo ≤ p.val * 1 + r.val ∧ p.val * 1 + r.val - lo < n
      omega
  · have e1 := Fin.sum_univ_eq_sum_range
      (fun r : ℕ => if lo ≤ p.val + r then xx (p.val + r - lo) else (0 : BitVec 32)) n
    have e2 := sum_window_reflect xx n lo p.val hlo p.isLt
    have e3 := Fin.sum_univ_eq_sum_range (fun q : ℕ => if q ≤ p.val then xx q else (0 : BitVec 32)) n
    refine (e1.trans (e2.trans e3.symm)).trans ?_
    apply Finset.sum_congr rfl
    intro q _
    by_cases hq : q ≤ p
    · rw [if_pos hq, if_pos (Fin.le_def.mp hq)]
      show (if hm : q.val < n then x (ix1 ⟨q.val, hm⟩) else 0#32) = _
      rw [dif_pos q.isLt]
    · rw [if_neg hq, if_neg (fun h' => hq (Fin.le_def.mpr h'))]
      rfl

end Idealize.ShloMosaic.PrefixSum
-- ==== Proof.LibScatterAdd.lean ====
import Idealize.ShloMosaic.PureOps.ShapeOps
import Idealize.ShloMosaic.Lib.ValueIdx
import Mathlib.Data.BitVec

open scoped BigOperators

namespace Idealize.ShloMosaic.ScatterAdd

open Idealize.ShloMosaic Idealize.ShloMosaic.ValueIdx

/-- A left fold of functions whose every step adds `g m` at the point `i` reads there as the start
value at `i` plus the sum of the `g m`. -/
theorem foldl_apply_add {ι β M : Type*} [AddCommMonoid M] (step : (β → M) → ι → (β → M)) (g : ι → M)
    (i : β) (hstep : ∀ r m, step r m i = r i + g m) (l : List ι) (r0 : β → M) :
    (l.foldl step r0) i = r0 i + (l.map g).sum := by
  induction l generalizing r0 with
  | nil => simp
  | cons a l ih => rw [List.foldl_cons, ih, hstep, List.map_cons, List.sum_cons, add_assoc]

/-- A scatter whose body is integer addition, read at an operand index: the operand's element plus the
sum of the updates whose result index is that index (updates landing outside the operand are
dropped). -/
theorem scatter_add_apply {s si u : Shape} {w v : ℕ} (d : ScatterDims s si u) (x : IVec s v)
    (idx : IVec si w) (upd : IVec u v) (i : s.Idx) :
    Host.scatter d IntOp.addi x idx upd i
      = x i + ∑ j : u.Idx, if d.resultIdx? j idx = some i then upd j else 0 := by
  unfold Host.scatter
  refine (foldl_apply_add _
    (fun m => if d.resultIdx? (u.rowMajor.symm m) idx = some i then upd (u.rowMajor.symm m) else 0)
    i ?_ _ _).trans ?_
  · intro r m
    generalize hres : d.resultIdx? (u.rowMajor.symm m) idx = o
    cases o with
    | none => simp
    | some i0 =>
      by_cases hi : i = i0
      · subst hi
        simp [IntOp.addi]
      · have hne : ¬ (some i0 = some i) := fun h => hi (Option.some.inj h).symm
        simp [hne, hi]
  · congr 1
    rw [← Fin.sum_univ_def, ← Equiv.sum_comp u.rowMajor]
    simp only [Equiv.symm_apply_apply]

/-- A rank-one index is its one coordinate. -/
def idxEquiv1 (n : ℕ) : (⟨1, ![n]⟩ : Shape).Idx ≃ Fin n where
  toFun i := i 0
  invFun a := ix1 a
  left_inv i := (eq_ix1 i).symm
  right_inv _ := rfl

/-- A sum over a rank-one index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 n).symm f]
  rfl

/-! ## One index column: scattering `M` scalar updates into a length-`N` operand -/

section Bincount
variable (N M : ℕ)
  (wf : ScatterDims.WF (⟨1, ![N]⟩ : Shape) (⟨2, ![M, 1]⟩ : Shape) (⟨1, ![M]⟩ : Shape) [] [0] [0] 1)

/-- The dimension numbers of a scatter of `M` scalar updates into a length-`N` operand through an
`M × 1` array of indices: no window axes, the operand's one axis inserted and named by the start
index's one component, the index vector along axis one. -/
abbrev bincountDims :
    ScatterDims (⟨1, ![N]⟩ : Shape) (⟨2, ![M, 1]⟩ : Shape) (⟨1, ![M]⟩ : Shape) where
  updateWindowDims := []
  insertedWindowDims := [0]
  scatterDimsToOperandDims := [0]
  indexVectorDim := 1
  wf := wf

/-- The start of update `p` on the operand's axis is index `(p, 0)` read as a signed integer. -/
theorem bincount_start (idx : IVec (⟨2, ![M, 1]⟩ : Shape) 32) (p : Fin M) :
    (bincountDims N M wf).start (ix1 p) idx 0 = (idx (ix2 p ⟨0, Nat.one_pos⟩)).toInt := by
  unfold ScatterDims.start
  rw [dif_pos (show (0 : Fin 1) ∈ (bincountDims N M wf).scatterDimsToOperandDims from
    List.mem_singleton.mpr rfl)]
  have hsi : (bincountDims N M wf).siIdx (ix1 p)
      ⟨List.idxOf (0 : Fin 1) (bincountDims N M wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The window coordinate of every update is zero: the operand's one axis is inserted. -/
theorem bincount_window (p : Fin M) : (bincountDims N M wf).window (ix1 p) 0 = 0 := by
  unfold ScatterDims.window
  rw [dif_neg]
  intro hmem
  have h2 := (List.mem_filter.mp hmem).2
  simp at h2

/-- Update `p` lands on slot `k` exactly when its index, read as a signed integer, is `k`. -/
theorem bincount_resultIdx?_eq_some_iff (idx : IVec (⟨2, ![M, 1]⟩ : Shape) 32) (p : Fin M) (k : Fin N) :
    (bincountDims N M wf).resultIdx? (ix1 p) idx = some (ix1 k)
      ↔ (idx (ix2 p ⟨0, Nat.one_pos⟩)).toInt = (k.val : ℤ) := by
  have hs := bincount_start N M wf idx p
  have hw := bincount_window N M wf p
  have hk := k.isLt
  unfold ScatterDims.resultIdx?
  split
  · rename_i hc
    have h0 := hc 0
    rw [hs, hw] at h0
    change 0 ≤ (idx (ix2 p ⟨0, Nat.one_pos⟩)).toInt + ((0 : ℕ) : ℤ)
      ∧ (idx (ix2 p ⟨0, Nat.one_pos⟩)).toInt + ((0 : ℕ) : ℤ) < (N : ℤ) at h0
    rw [Option.some.injEq]
    constructor
    · intro he
      have h1 := congrArg Fin.val (congrFun he 0)
      change ((bincountDims N M wf).start (ix1 p) idx 0
        + (((bincountDims N M wf).window (ix1 p) 0 : ℕ) : ℤ)).toNat = k.val at h1
      rw [hs, hw] at h1
      omega
    · intro he
      funext a
      obtain rfl : a = 0 := Subsingleton.elim _ _
      apply Fin.ext
      show ((bincountDims N M wf).start (ix1 p) idx 0
        + (((bincountDims N M wf).window (ix1 p) 0 : ℕ) : ℤ)).toNat = k.val
      rw [hs, hw]
      omega
  · rename_i hc
    constructor
    · intro he
      exact absurd he (by simp)
    · intro he
      exfalso
      apply hc
      intro a
      obtain rfl : a = 0 := Subsingleton.elim _ _
      rw [hs, hw]
      show 0 ≤ (idx (ix2 p ⟨0, Nat.one_pos⟩)).toInt + ((0 : ℕ) : ℤ)
        ∧ (idx (ix2 p ⟨0, Nat.one_pos⟩)).toInt + ((0 : ℕ) : ℤ) < (N : ℤ)
      omega

end Bincount

/-- Scattering `M` scalar updates by addition into a length-`N` operand through an `M × 1` array of
indices, read at slot `k`: the operand's element plus the sum of the updates whose index, read as a
signed integer, is `k` (an index outside `[0, N)` lands nowhere). -/
theorem bincount_apply (N M : ℕ)
    (wf : ScatterDims.WF (⟨1, ![N]⟩ : Shape) (⟨2, ![M, 1]⟩ : Shape) (⟨1, ![M]⟩ : Shape) [] [0] [0] 1)
    (x : IVec (⟨1, ![N]⟩ : Shape) 32) (idx : IVec (⟨2, ![M, 1]⟩ : Shape) 32)
    (upd : IVec (⟨1, ![M]⟩ : Shape) 32) (k : Fin N) :
    Host.scatter
      ({ updateWindowDims := [], insertedWindowDims := [0], scatterDimsToOperandDims := [0],
         indexVectorDim := 1, wf := wf } :
        ScatterDims (⟨1, ![N]⟩ : Shape) (⟨2, ![M, 1]⟩ : Shape) (⟨1, ![M]⟩ : Shape))
      IntOp.addi x idx upd (ix1 k)
      = x (ix1 k) + ∑ p : Fin M,
          if (idx (ix2 p ⟨0, Nat.one_pos⟩)).toInt = (k.val : ℤ) then upd (ix1 p) else 0#32 := by
  show Host.scatter (bincountDims N M wf) IntOp.addi x idx upd (ix1 k) = _
  rw [scatter_add_apply, sum_idx1]
  congr 1
  apply Finset.sum_congr rfl
  intro p _
  by_cases hc : (idx (ix2 p ⟨0, Nat.one_pos⟩)).toInt = (k.val : ℤ)
  · rw [if_pos hc, if_pos ((bincount_resultIdx?_eq_some_iff N M wf idx p k).mpr hc)]
  · rw [if_neg hc, if_neg (fun h => hc ((bincount_resultIdx?_eq_some_iff N M wf idx p k).mp h))]
    rfl

end Idealize.ShloMosaic.ScatterAdd
-- ==== Proof.RefIndex.lean ====
/-
  The pairs' positions, read in closed form.

  Flat position q = 32 i + j of the 32 × 32 grid carries a one exactly when i < j. The inclusive
  running count of these ones, the histogram of the running counts over 496 slots and the
  running sum of that histogram are the three integer stages the reference computes; in natural
  numbers they are the functions cnt, hist and pos of a selection by counting, and pos k is
  the flat position of the (k+1)-th one. Row and column of pair k are pos k / 32 and
  pos k % 32, recovered by a floor division and a remainder that, on the range 0 … 1023, are the
  plain ones.
-/
import proofs.«159058_j34986803593252_2_alg».proof.Proof.RefSpec
import proofs.«159058_j34986803593252_2_alg».proof.Proof.PairOrder
import proofs.«159058_j34986803593252_2_alg».proof.Proof.LibPrefixSum
import proofs.«159058_j34986803593252_2_alg».proof.Proof.LibScatterAdd
import Idealize.ShloMosaic.Lib.ValueIdx
import Idealize.ShloMosaic.Lib.Pipeline.Value
import Idealize.ShloMosaic.PureOps.Ideal.Laws

noncomputable section

namespace Cert.ReferenceIdeal.Index

open Idealize.ShloMosaic Idealize.ShloMosaic.ValueIdx Cert.ReferenceIdeal Cert.ReferenceIdeal.Gen Cert.ReferenceIdeal.Spec
open RankLoss.PairOrder

/-! ## Sums of words -/

/-- A sum of small words is the word of the sum. -/
theorem ofNat_sum {ι : Type*} (s : Finset ι) (f : ι → ℕ) :
    ∑ i ∈ s, BitVec.ofNat 32 (f i) = BitVec.ofNat 32 (∑ i ∈ s, f i) := by
  classical
  induction s using Finset.induction_on with
  | empty => simp
  | insert a s ha ih => rw [Finset.sum_insert ha, Finset.sum_insert ha, ih, BitVec.ofNat_add]

/-! ## The stages at an index -/

theorem upperMask_apply (i j : Fin 32) : upperMask (ix2 i j) = if i.val < j.val then 1#1 else 0#1 := by
  unfold upperMask upperOnes rowNo colNo
  simp only [cmpf_apply, select_apply, cmpi, addi, iotaInDim, broadcastInDim, constantI, constant, Ideal.cmpf_def]
  have hc : ∀ i j : Fin 32, IntOp.cmpi CmpIPredicate.sge (IntOp.addi (BitVec.ofNat 32 i.val) 0#32) (BitVec.ofNat 32 j.val)
      = if i.val < j.val then 0#1 else 1#1 := by decide +kernel
  have h1 : Ideal.ofBits FTy.f32 1065353216#32 ≠ 0 := by
    simp [Ideal.ofBits, Ideal.ieee]
  show Ideal.cmp CmpFPredicate.une (Scalar.select (IntOp.cmpi CmpIPredicate.sge (IntOp.addi (BitVec.ofNat 32 i.val) 0#32) (BitVec.ofNat 32 j.val))
      (FloatOps.ofBits (F := Ideal) FTy.f32 0#32) (FloatOps.ofBits (F := Ideal) FTy.f32 1065353216#32)) (FloatOps.ofBits (F := Ideal) FTy.f32 0#32) = _
  rw [hc i j]
  by_cases h : i.val < j.val
  · rw [if_pos h, if_pos h]
    simp only [Scalar.select, Ideal.cmp]
    simp [h1]
  · rw [if_neg h, if_neg h]
    simp [Scalar.select, Ideal.cmp]

/-- The flattened mask is the triangle indicator. -/
theorem maskFlat_apply (q : Fin 1024) : maskFlat (ix1 q) = BitVec.ofNat 32 (tri q) := by
  unfold maskFlat
  rw [extui_apply]
  have hq := q.isLt
  rw [shapeCast_apply upperMask shapeCasts_S32x32_S1024 (ix1 q)
    (ix2 (⟨q.val / 32, by omega⟩ : Fin 32) (⟨q.val % 32, by omega⟩ : Fin 32))
    (by rw [Shape.rowMajor_val_two, Shape.rowMajor_val_one]; show q.val / 32 * 32 + q.val % 32 = q.val; omega)]
  rw [upperMask_apply]
  unfold tri
  split <;> rfl

/-- The running sums start from the zero word. -/
theorem zeroS_apply : zeroS ix0 = 0#32 := rfl

/-- The running count of the mask, as a word. -/
theorem count_apply (p : Fin 1024) : Spec.count (ix1 p) = BitVec.ofNat 32 (cntN p) := by
  unfold Spec.count
  refine (PrefixSum.reduceWindow_prefix_apply 1024 1023 rfl maskFlat zeroS zeroS_apply
    reduceWindows_S1024_S1024_w1024s1p1023_0 h_S_ p).trans ?_
  rw [show (∑ q : Fin 1024, if q ≤ p then maskFlat (ix1 q) else 0#32)
      = ∑ q : Fin 1024, BitVec.ofNat 32 (if q ≤ p then tri q else 0) from
    Finset.sum_congr rfl fun q _ => by rw [maskFlat_apply]; split <;> rfl]
  rw [ofNat_sum]
  rfl

/-- On counts 0 … 1024 the lower bound zero and the wrap of a negative count change nothing. -/
theorem clip_word : ∀ v : Fin 1025,
    Scalar.select (IntOp.cmpi CmpIPredicate.slt (IntOp.maxsi 0#32 (BitVec.ofNat 32 v.val)) 0#32)
      (IntOp.addi (IntOp.maxsi 0#32 (BitVec.ofNat 32 v.val)) 496#32) (IntOp.maxsi 0#32 (BitVec.ofNat 32 v.val))
      = BitVec.ofNat 32 v.val := by decide +kernel

/-- The lower bound and the wrap, of one word. -/
def clipS (c : BitVec 32) : BitVec 32 :=
  Scalar.select (IntOp.cmpi CmpIPredicate.slt (IntOp.maxsi 0#32 c) 0#32) (IntOp.addi (IntOp.maxsi 0#32 c) 496#32) (IntOp.maxsi 0#32 c)

theorem slot_eq (p : Fin 1024) : Spec.slot (ix1 p) = clipS (Spec.count (ix1 p)) := rfl

/-- The slot a position adds to is its running count. -/
theorem slot_apply (p : Fin 1024) : Spec.slot (ix1 p) = BitVec.ofNat 32 (cntN p) := by
  rw [slot_eq, count_apply]
  exact clip_word ⟨cntN p, by have := cntN_le p; omega⟩

/-- A small word read as a signed integer is the number. -/
theorem toInt_word (n : ℕ) (h : n < 1024) : (BitVec.ofNat 32 n).toInt = (n : ℤ) := by
  have h1 : (BitVec.ofNat 32 n).toNat = n := by rw [BitVec.toNat_ofNat]; omega
  rw [BitVec.toInt_eq_toNat_of_lt (by rw [h1]; omega), h1]

/-- The histogram of the running counts, as a word. -/
theorem hist_apply (k : Fin 496) : Spec.hist (ix1 k) = BitVec.ofNat 32 (histN k.val) := by
  unfold Spec.hist
  rw [show scatter_S496_S1024x1_S1024_n_0_0_1
      = ({ updateWindowDims := [], insertedWindowDims := [0], scatterDimsToOperandDims := [0], indexVectorDim := 1,
           wf := scatter_S496_S1024x1_S1024_n_0_0_1_wf } : ScatterDims S496 S1024x1 S1024) from rfl]
  have hb := ScatterAdd.bincount_apply 496 1024 scatter_S496_S1024x1_S1024_n_0_0_1_wf (k496 (cI 0#32))
    (broadcastInDim S1024x1 ![0] bcast_S1024_S1024x1_0 Spec.slot) (k1024 (cI 1#32)) k
  refine hb.trans ?_
  clear hb
  have hcol : ∀ p : Fin 1024, broadcastInDim S1024x1 ![0] bcast_S1024_S1024x1_0 Spec.slot (ix2 p ⟨0, Nat.one_pos⟩) = Spec.slot (ix1 p) :=
    fun p => broadcastInDim_apply _ _ _ _ (ix1 p) (fun a => by match a with | ⟨0, _⟩ => rfl)
  rw [show k496 (cI 0#32) (ix1 k) = 0#32 from rfl, BitVec.zero_add]
  rw [show (∑ p : Fin 1024, if (broadcastInDim S1024x1 ![0] bcast_S1024_S1024x1_0 Spec.slot (ix2 p ⟨0, Nat.one_pos⟩)).toInt = (k.val : ℤ)
        then k1024 (cI 1#32) (ix1 p) else 0#32)
      = ∑ p : Fin 1024, BitVec.ofNat 32 (if cntN p = k.val then 1 else 0) from
    Finset.sum_congr rfl fun p _ => by
      rw [hcol p, slot_apply p, toInt_word (cntN p) (by have := cntN_le p; omega)]
      show (if ((cntN p : ℕ) : ℤ) = (k.val : ℤ) then (1#32 : BitVec 32) else 0#32) = _
      by_cases h : cntN p = k.val
      · rw [if_pos h, if_pos (by exact_mod_cast h)]
      · rw [if_neg h, if_neg (by exact_mod_cast h)]]
  rw [ofNat_sum]
  rfl

/-- The running sum of the histogram: the flat position of pair `k`, as a word. -/
theorem flatPos_apply (k : Fin 496) : flatPos (ix1 k) = BitVec.ofNat 32 (posN k.val) := by
  unfold flatPos
  refine (PrefixSum.reduceWindow_prefix_apply 496 495 rfl Spec.hist zeroS zeroS_apply
    reduceWindows_S496_S496_w496s1p495_0 h_S_ k).trans ?_
  rw [show (∑ q : Fin 496, if q ≤ k then Spec.hist (ix1 q) else 0#32)
      = ∑ q : Fin 496, BitVec.ofNat 32 (if q.val ≤ k.val then histN q.val else 0) from
    Finset.sum_congr rfl fun q _ => by
      rw [hist_apply]
      by_cases h : q ≤ k
      · rw [if_pos h, if_pos (Fin.le_def.mp h)]
      · rw [if_neg h, if_neg (fun h' => h (Fin.le_def.mpr h'))]]
  rw [ofNat_sum]
  rfl

/-! ## Row and column of a position -/

/-- The sign of a word: 0, −1 or 1. -/
def sgnS (a : BitVec 32) : BitVec 32 := if a = 0 then 0 else if a.msb then -1 else 1
/-- Floor division of words. -/
def fdS (a c : BitVec 32) : BitVec 32 :=
  Scalar.select (IntOp.andi (IntOp.cmpi CmpIPredicate.ne (sgnS a) (sgnS c)) (IntOp.cmpi CmpIPredicate.ne (IntOp.remsi .host a c) 0#32))
    (IntOp.subi (IntOp.divsi .host a c) 1#32) (IntOp.divsi .host a c)
/-- Remainder with the divisor's sign, of words. -/
def frS (a c : BitVec 32) : BitVec 32 :=
  let c' : BitVec 32 := Scalar.select (IntOp.cmpi CmpIPredicate.eq c 0#32) 1#32 c
  let r : BitVec 32 := IntOp.remsi .host a c'
  Scalar.select (IntOp.andi (IntOp.cmpi CmpIPredicate.ne (IntOp.cmpi CmpIPredicate.slt r 0#32) (IntOp.cmpi CmpIPredicate.slt c' 0#32))
    (IntOp.cmpi CmpIPredicate.ne r 0#32)) (IntOp.addi r c') r
/-- A negative word wrapped by 32. -/
def wrapS (a : BitVec 32) : BitVec 32 := Scalar.select (IntOp.cmpi CmpIPredicate.slt a 0#32) (IntOp.addi a 32#32) a

theorem floorDiv_apply (a : IVec S496 32) (v : BitVec 32) (k : Fin 496) : floorDiv a (cI v) (ix1 k) = fdS (a (ix1 k)) v := rfl
theorem floorRem_apply (a : IVec S496 32) (v : BitVec 32) (k : Fin 496) : floorRem a (cI v) (ix1 k) = frS (a (ix1 k)) v := rfl
theorem wrap32_apply (a : IVec S496 32) (k : Fin 496) : wrap32 a (ix1 k) = wrapS (a (ix1 k)) := rfl

/-- On 0 … 1023: the row is the quotient by 32, the column the remainder. -/
theorem row_word : ∀ v : Fin 1024, wrapS (frS (fdS (BitVec.ofNat 32 v.val) 32#32) 32#32) = BitVec.ofNat 32 (v.val / 32) := by
  decide +kernel
theorem col_word : ∀ v : Fin 1024, wrapS (frS (fdS (BitVec.ofNat 32 v.val) 1#32) 32#32) = BitVec.ofNat 32 (v.val % 32) := by
  decide +kernel

/-- The row selected for pair `k`. -/
theorem rowSel_apply (k : Fin 496) : rowSel (ix2 k ⟨0, Nat.one_pos⟩) = BitVec.ofNat 32 (posN k.val / 32) := by
  unfold rowSel
  rw [broadcastInDim_apply _ _ _ (ix2 k ⟨0, Nat.one_pos⟩) (ix1 k) (fun a => by match a with | ⟨0, _⟩ => rfl)]
  rw [wrap32_apply, floorRem_apply, floorDiv_apply, flatPos_apply]
  exact row_word ⟨posN k.val, posN_lt k⟩

/-- The column selected for pair `k`. -/
theorem colSel_apply (k : Fin 496) : colSel (ix2 k ⟨0, Nat.one_pos⟩) = BitVec.ofNat 32 (posN k.val % 32) := by
  unfold colSel
  rw [broadcastInDim_apply _ _ _ (ix2 k ⟨0, Nat.one_pos⟩) (ix1 k) (fun a => by match a with | ⟨0, _⟩ => rfl)]
  rw [wrap32_apply, floorRem_apply, floorDiv_apply, flatPos_apply]
  exact col_word ⟨posN k.val, posN_lt k⟩

end Cert.ReferenceIdeal.Index

end
-- ==== Proof.RefTake.lean ====
/-
  Two layout stages of the reference, read at an index: the flat score array cut into 32768
  segments of 32 (entry i of segment s is flat entry 32 s + i), and the selection of one entry
  per pair along each segment (place k reads the segment at the selected index, which is read as
  a signed integer and kept inside 0 … 31).
-/
import proofs.«159058_j34986803593252_2_alg».proof.Proof.RefSpec
import Idealize.ShloMosaic.Lib.ValueIdx
import Idealize.ShloMosaic.Lib.Pipeline.Value
import Idealize.ShloMosaic.PureOps.Ideal.Laws
noncomputable section
namespace Cert.ReferenceIdeal.RefTake
open Idealize.ShloMosaic Idealize.ShloMosaic.ValueIdx Cert.ReferenceIdeal Cert.ReferenceIdeal.Gen Cert.ReferenceIdeal.Spec

/-- A segment's score: entry `i` of segment `s` is flat entry `32 s + i`. -/
theorem seg_apply (x : FVec Ideal S1048576 .f32) (s : Fin 32768) (i : Fin 32) :
    seg x (ix2 s i) = x (ix1 ⟨32 * s.val + i.val, by have := s.isLt; have := i.isLt; omega⟩) := by
  unfold seg
  refine shapeCast_apply x shapeCasts_S1048576_S32768x32 (ix2 s i) _ ?_
  rw [Shape.rowMajor_val_two, Shape.rowMajor_val_one]
  show 32 * s.val + i.val = s.val * 32 + i.val
  omega

/-- The selection along a segment: place `k` of the result reads the segment at the selected index, read signed and
    kept inside 0 … 31. -/
theorem take_apply (x : FVec Ideal S1048576 .f32) (sel : IVec S496x1 32) (s : Fin 32768) (k : Fin 496) :
    take x sel (ix2 s k) = seg x (ix2 s ⟨min (sel (ix2 k ⟨0, Nat.one_pos⟩)).toInt.toNat 31, by omega⟩) := by
  unfold take Host.gather
  congr 1
  funext a
  refine Fin.ext ?_
  match a with
  | ⟨0, _⟩ =>
    show gather_S32768x32_S496x1_S32768x496_0_1_n_n_1_1_327681.start (ix2 s k) sel 0
      + gather_S32768x32_S496x1_S32768x496_0_1_n_n_1_1_327681.batchCoord (ix2 s k) 0
      + gather_S32768x32_S496x1_S32768x496_0_1_n_n_1_1_327681.offCoord (ix2 s k) 0 = s.val
    rw [GatherDims.batchCoord_eq_zero _ _ _ List.not_mem_nil]
    unfold GatherDims.start GatherDims.offCoord
    rw [dif_neg (by decide), dif_pos (by decide), Nat.zero_add]
    rfl
  | ⟨1, _⟩ =>
    show gather_S32768x32_S496x1_S32768x496_0_1_n_n_1_1_327681.start (ix2 s k) sel 1
      + gather_S32768x32_S496x1_S32768x496_0_1_n_n_1_1_327681.batchCoord (ix2 s k) 1
      + gather_S32768x32_S496x1_S32768x496_0_1_n_n_1_1_327681.offCoord (ix2 s k) 1 = min (sel (ix2 k ⟨0, Nat.one_pos⟩)).toInt.toNat 31
    rw [GatherDims.batchCoord_eq_zero _ _ _ List.not_mem_nil, GatherDims.offCoord_eq_zero _ _ _ (by decide)]
    unfold GatherDims.start
    rw [dif_pos (by decide)]
    have hsi : gather_S32768x32_S496x1_S32768x496_0_1_n_n_1_1_327681.siIdx (ix2 s k)
        ⟨List.idxOf (1 : Fin 2) gather_S32768x32_S496x1_S32768x496_0_1_n_n_1_1_327681.startIndexMap,
          List.idxOf_lt_length_iff.2 (by decide)⟩ = ix2 k ⟨0, Nat.one_pos⟩ := by
      funext b; refine Fin.ext ?_
      match b with
      | ⟨0, _⟩ => rfl
      | ⟨1, _⟩ => rfl
    rw [hsi]
    rfl
end Cert.ReferenceIdeal.RefTake
end
-- ==== Proof.RefOut.lean ====
/-
  The reference's result, read entry by entry on the extended reals.

  At an entry, the reference's pair term of two scores `p` and `n` is minus the softplus of
  `-(p - n)` plus one thousandth of half of `p² - n²`, the softplus being
  `max a 0 + log1p (exp (-|a - 0|))` with `|v| = max v (-v)`: the guard on `a - 0 ≠ a - 0` never holds,
  since no extended real differs from itself.  Negation is subtraction from zero, so this is the
  pair's term of the result function.  The result at segment `s` is minus the quotient, by the word
  for 496, of zero plus the sum over the 496 pairs of the term of the two scores selected for the
  pair.  The selections themselves are carried as opaque arrays.
-/
import proofs.«159058_j34986803593252_2_alg».proof.Proof.RefSpec
import proofs.«159058_j34986803593252_2_alg».proof.Proof.KerSpec
import Idealize.ShloMosaic.Lib.ValueIdx
import Idealize.ShloMosaic.Lib.Pipeline.Value
import Idealize.ShloMosaic.PureOps.Ideal.Laws

noncomputable section

open scoped BigOperators

namespace Cert.ReferenceIdeal.RefOut

open Idealize.ShloMosaic Idealize.ShloMosaic.ValueIdx Cert.ReferenceIdeal Cert.ReferenceIdeal.Gen

/-- A constant over segments × pairs reads its word's value everywhere. -/
theorem kPairs_apply (w : BitVec 32) (i : S32768x496.Idx) : Spec.kPairs w i = Ideal.ofBits .f32 w := rfl

/-- No extended real differs from itself. -/
theorem cmp_une_self (d : EReal) : FloatOps.cmpf (F := Ideal) (φ := .f32) .une d d = 0#1 := by
  show Ideal.cmp .une d d = 0#1
  simp [Ideal.cmp]

/-- The reference's softplus at an entry. -/
theorem softplus_apply (a : FVec Ideal S32768x496 .f32) (i : S32768x496.Idx) :
    Spec.softplus a i = max (a i) 0 + Ideal.log1p (Ideal.exp (-(max (a i - 0) (-(a i - 0))))) := by
  unfold Spec.softplus
  simp only [select_apply, cmpf_apply, subf_apply, addf_apply, maximumf_apply, kPairs_apply, Host.log1p, Host.exp,
    Host.negf, Host.absf, Ideal.hostUnary_log1p_def, Ideal.hostUnary_exp_def, Ideal.hostNegf_def, Ideal.hostAbsf_def,
    Ideal.negf_def, Ideal.absf_def, cmp_une_self, select_zero, Ideal.ofBits_zero_f32]

/-- The reference's pair term at an entry is the pair's term of the two scores there. -/
theorem pairTerm_apply (p n : FVec Ideal S32768x496 .f32) (i : S32768x496.Idx) :
    Spec.pairTerm p n i = RankLoss.kTerm (p i) (n i) := by
  unfold Spec.pairTerm Spec.logSigmoid RankLoss.kTerm
  simp only [addf_apply, mulf_apply, subf_apply, softplus_apply, kPairs_apply, Host.negf, Ideal.hostNegf_def,
    Ideal.negf_def, zero_sub]

/-- The host's sum over the pairs, at a segment: the initial value plus the sum over the 496 pairs. -/
theorem sum_pairs (P : FVec Ideal S32768x496 .f32) (init : S_.Idx → Ideal .f32) (h' : S32768x496.ReducesTo [1] S32768)
    (hu : 0 < S_.numel) (s : Fin 32768) :
    Host.reduceAdd P init h' hu (ix1 s) = init (Shape.Idx.first hu) + ∑ k : Fin 496, P (ix2 s k) := by
  have hR : S32768x496.Reduces [1] S32768 := by decide
  show Ideal.hostReduceAdd h' P (init (Shape.Idx.first hu)) (ix1 s) = _
  refine (Ideal.hostReduceAdd_single h' hR P _ (ix1 s)).trans ?_
  refine congrArg (fun z : EReal => init (Shape.Idx.first hu) + z) (Finset.sum_congr rfl fun k _ => congrArg P ?_)
  funext a
  match a with
  | ⟨0, _⟩ => rfl
  | ⟨1, _⟩ => rfl

/-- The reference's result at a segment: minus the quotient by the word for 496 of zero plus the sum over the
    pairs of the pair's term of the two selected scores. -/
theorem out_apply (x : FVec Ideal S1048576 .f32) (s : Fin 32768) :
    Spec.out x (ix1 s) = -(Ideal.div (0 + ∑ k : Fin 496, RankLoss.kTerm (Spec.take x Spec.rowSel (ix2 s k)) (Spec.take x Spec.colSel (ix2 s k)))
                            (Ideal.ofBits .f32 0x43F80000#32)) := by
  unfold Spec.out
  show -(Ideal.div (Host.reduceAdd (Spec.pairTerm (Spec.take x Spec.rowSel) (Spec.take x Spec.colSel))
      (constant S_ .f32 0x00000000#32) reducesTo_S32768x496_S32768_d1 h_S_ (ix1 s)) (Ideal.ofBits .f32 0x43F80000#32)) = _
  rw [sum_pairs, constant_apply, Ideal.ofBits_zero_f32]
  simp only [pairTerm_apply]

end Cert.ReferenceIdeal.RefOut

end
-- ==== Proof.RefBridge.lean ====
/-
  The reference's result is the kernel's, as one function of the flat score array.

  At segment s the reference sums, over the 496 pairs k in the order the running counts number
  them, the pair's term of the two scores at row pos k / 32 and column pos k % 32 of the 32 × 32
  grid; the positions pos k run through the cells strictly above the diagonal exactly once, so
  this is the sum over all cells (i, j) of the term where i < j and of zero elsewhere — addition
  on the extended reals is commutative and associative, no finiteness is used. The reference
  then divides by 496 and negates; the kernel multiplies by the exact 1/496 and subtracts from
  zero: the quotient by a nonzero real is the product with its reciprocal on every extended real.
-/
import proofs.«159058_j34986803593252_2_alg».proof.Proof.RefIndex
import proofs.«159058_j34986803593252_2_alg».proof.Proof.RefTake
import proofs.«159058_j34986803593252_2_alg».proof.Proof.RefOut
import proofs.«159058_j34986803593252_2_alg».proof.Proof.KerSpec
import proofs.«159058_j34986803593252_2_alg».proof.Proof.PairOrder

noncomputable section

namespace Cert.ReferenceIdeal.RefBridge

open Idealize.ShloMosaic Idealize.ShloMosaic.ValueIdx Cert.ReferenceIdeal Cert.ReferenceIdeal.Gen
open RankLoss.PairOrder

/-- The divisor's word denotes the real 496. -/
theorem ofBits_496 : Ideal.ofBits .f32 0x43F80000#32 = ((496 : ℝ) : EReal) := by
  simp [Ideal.ofBits, Ideal.ieee, -EReal.coe_mul]; norm_num

/-- A selected index word, read signed and kept inside 0 … 31, is the number it encodes. -/
theorem sel_val (w : BitVec 32) (n : ℕ) (hn : n < 32) (hw : w = BitVec.ofNat 32 n) : min w.toInt.toNat 31 = n := by
  subst hw
  rw [Index.toInt_word n (by omega), Int.toNat_natCast]
  omega

/-- A score selected along segment `s`: when the index word of place `k` encodes `n < 32`, the place reads flat entry
    `32 s + n`. -/
theorem take_at (x : FVec Ideal S1048576 .f32) (sel : IVec S496x1 32) (s : Fin 32768) (k : Fin 496) (n : ℕ) (hn : n < 32)
    (hsel : sel (ix2 k ⟨0, Nat.one_pos⟩) = BitVec.ofNat 32 n) :
    Spec.take x sel (ix2 s k) = x (ix1 ⟨32 * s.val + n, by have := s.isLt; omega⟩) := by
  rw [RefTake.take_apply, RefTake.seg_apply]
  refine congrArg (fun i : Fin 1048576 => x (ix1 i)) (Fin.ext ?_)
  show 32 * s.val + min (sel (ix2 k ⟨0, Nat.one_pos⟩)).toInt.toNat 31 = 32 * s.val + n
  rw [sel_val _ n hn hsel]

/-- The two programs compute one function. -/
theorem out_eq_G (x : FVec Ideal S1048576 .f32) : Spec.out x = RankLoss.G x := by
  funext y
  obtain ⟨s, rfl⟩ : ∃ s : Fin 32768, y = ix1 s := ⟨y 0, eq_ix1 y⟩
  rw [RefOut.out_apply]
  have hs : s.val < 32768 := s.isLt
  have hterm : ∀ k : Fin 496,
      RankLoss.kTerm (Spec.take x Spec.rowSel (ix2 s k)) (Spec.take x Spec.colSel (ix2 s k))
        = (fun i j : Fin 32 => RankLoss.kTerm (x (ix1 ⟨32 * s.val + i.val, by omega⟩)) (x (ix1 ⟨32 * s.val + j.val, by omega⟩)))
            ⟨posN k.val / 32, by have := posN_lt k; omega⟩ ⟨posN k.val % 32, Nat.mod_lt _ (by norm_num)⟩ := fun k => by
    rw [take_at x Spec.rowSel s k _ (by have := posN_lt k; omega) (Index.rowSel_apply k),
      take_at x Spec.colSel s k _ (Nat.mod_lt _ (by norm_num)) (Index.colSel_apply k)]
  rw [Finset.sum_congr rfl (fun k _ => hterm k),
    sum_pairs (fun i j : Fin 32 => RankLoss.kTerm (x (ix1 ⟨32 * s.val + i.val, by omega⟩)) (x (ix1 ⟨32 * s.val + j.val, by omega⟩))),
    ofBits_496, Ideal.div_coe (by norm_num : (496 : ℝ) ≠ 0), zero_add]
  unfold RankLoss.G
  rw [zero_sub]

end Cert.ReferenceIdeal.RefBridge

end
-- ==== Proof.lean ====
/-
  A pairwise log-sigmoid ranking loss over 32768 segments of 32 scores: for each segment, minus the
  mean over the 496 pairs i < j of  log σ(x_i − x_j) + 0.001 · ½ (x_i² − x_j²).

  The kernel holds the scores transposed (32 rows, one column per segment), forms every ordered
  pair of rows, keeps the term where the row numbers satisfy i < j and zero elsewhere, sums over
  both row axes and multiplies by the named reciprocal 1/496. The reference numbers the pairs
  i < j at run time — the strict upper triangle of a 32 × 32 grid as a mask, its running count,
  a histogram of the counts and the histogram's running sum give the flat position of each
  pair —, selects the two scores of each pair along every segment, sums the 496 terms and
  divides by 496. On the extended reals both are one function of the score array: the numbered
  positions run through the cells above the diagonal exactly once, sums may be regrouped freely,
  and the quotient by 496 is the product with 1/496. The precondition is not used.

  Frames: the two kernel programs' frames are the generated ones; the reference's is its run
  with the result dropped. The idealization's one rewrite names the literal 0.00201612897 as 1/496.
-/
import proofs.«159058_j34986803593252_2_alg».proof.Defs
import proofs.«159058_j34986803593252_2_alg».proof.Proof.Gen.Kernel
import proofs.«159058_j34986803593252_2_alg».proof.Proof.Gen.Kernel.Skeleton
import proofs.«159058_j34986803593252_2_alg».proof.Proof.Gen.Kernel.Launch
import proofs.«159058_j34986803593252_2_alg».proof.Proof.Gen.Kernel.Points
import proofs.«159058_j34986803593252_2_alg».proof.Proof.Gen.Kernel.Frame
import proofs.«159058_j34986803593252_2_alg».proof.Proof.Gen.KernelIdeal
import proofs.«159058_j34986803593252_2_alg».proof.Proof.Gen.KernelIdeal.Skeleton
import proofs.«159058_j34986803593252_2_alg».proof.Proof.Gen.KernelIdeal.Launch
import proofs.«159058_j34986803593252_2_alg».proof.Proof.Gen.KernelIdeal.Points
import proofs.«159058_j34986803593252_2_alg».proof.Proof.Gen.KernelIdeal.Frame
import proofs.«159058_j34986803593252_2_alg».proof.Proof.Gen.KernelIdeal.Value
import proofs.«159058_j34986803593252_2_alg».proof.Proof.Gen.ReferenceIdeal
import proofs.«159058_j34986803593252_2_alg».proof.Proof.Gen.Pre_finite_inputs
import proofs.«159058_j34986803593252_2_alg».proof.Proof.KerArray
import proofs.«159058_j34986803593252_2_alg».proof.Proof.RefRun
import proofs.«159058_j34986803593252_2_alg».proof.Proof.RefBridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefRun.run m ρ)

/-- The one rewrite of the idealization: the literal read as the rational 1/496. -/
theorem preserves : Cert.preserves_Kernel_KernelIdeal :=
  IdealRules.named_const.statement Cert.KernelIdeal.κ "inv_496" .f32 0x3B042108#32 ((1 / 496 : ℝ) : EReal) rfl

/-- From memories agreeing on the arguments both programs end with the same loss per segment. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [(hagree c).1]
  exact Cert.ReferenceIdeal.RefBridge.out_eq_G _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
